-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S8192x2048 .f32) (main_arg1 : FVec F S4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S8192x2048 : Shape := ⟨2, ![8192, 2048]⟩
abbrev S4096x2048 : Shape := ⟨2, ![4096, 2048]⟩
abbrev S16x128 : Shape := ⟨2, ![16, 128]⟩
abbrev S1024x2048 : Shape := ⟨2, ![1024, 2048]⟩
abbrev S8x128 : Shape := ⟨2, ![8, 128]⟩
abbrev S1x1 : Shape := ⟨2, ![1, 1]⟩
abbrev S1024 : Shape := ⟨1, ![1024]⟩
abbrev S1024x1 : Shape := ⟨2, ![1024, 1]⟩
abbrev S1 : Shape := ⟨1, ![1]⟩
abbrev S_ : Shape := ⟨0, ![]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S8x128, .f32⟩
  | .local _ .vmem, ⟨3, _⟩ => ⟨S8x128, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x1, .f32⟩
  | .local _ .vmem, ⟨12, _⟩ => ⟨S512x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c4_i32 : BitVec 32 := 4#32
  let v2 : BitVec 32 := Scalar.addi v1 c4_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  shapeCasts_S_S1x1 : S_.ShapeCasts S1x1
  inb_S512x2048_S512x2048_0_0 : ∀ a, (![0, 0] : Fin 2 → Nat) a + S512x2048.size a ≤ S512x2048.size a
  h_S512x2048 : 0 < S512x2048.numel
  broadcasts_S1x1_S512x2048 : S1x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .f32 = 32 ∨ (Rect.block (s := S8192x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .f32 = 32 ∨ (Rect.block (s := S4096x2048) S512x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S4096x2048.size a
  hwx1_4 : ∀ i : grid1.Coords, EltTy.bits .f32 = 32 ∨ (Rect.block (s := S4096x2048) S512x2048.size (cc1_transform_4 i) (hinb1_4 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  slices_S8192x2048_S4096x2048_0_0 : S8192x2048.Slices ![0, 0] S4096x2048
  slices_S8192x2048_S4096x2048_4096_0 : S8192x2048.Slices ![4096, 0] S4096x2048
  reducesTo_S4096x2048_S_d0_1 : S4096x2048.ReducesTo [0, 1] S_
  h_S_ : 0 < S_.numel
  bcast_S_S4096x2048 : S_.BroadcastsInDim S4096x2048 (![] : Fin 0 → Fin S4096x2048.rank)

variable [Facts₀]

class Facts : Prop extends Facts₀ where

variable [Facts]
-- ==== Proof.Kernel.SumShared.lean ====
/- The summing region (the first kernel call), what its two cases share. The grid is 2 × 2: the outer coordinate
   picks a half of the rows to sum, the inner one the tile within it. At the first tile of a half (inner coordinate 0) the
   body zeroes its 1×1 accumulator before adding the tile's sum of logarithms; at the last (inner coordinate 1) it adds and
   then writes the accumulator, broadcast, into the 8×128 output block of that half. So over the four points in order the
   two conditions alternate: first, last, first, last. The output block is stored, and written back, at the last tile only. -/
import proofs.«152096_j45028437131761_2_alg».proof.Proof.Gen.Kernel.Launch
import proofs.«152096_j45028437131761_2_alg».proof.Proof.Gen.Kernel.Skeleton
import proofs.«152096_j45028437131761_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input tile at a point -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its tile at every point, for any proof data over `V` whose body
    leaves the tile in place. -/
theorem sumBefore0_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t :=
  (dat.before_in_eq_fetched 0 rfl (fun _ => rfl) (fun _ _ _ => rfl) (fun t => by rw [hafter]; unfold Dat.blockOf sumBlk; rw [hA]; try rfl) t d).trans
    (by unfold Dat.fetched Dat.blockOf sumBlk; rw [hA]; try rfl)

/-! ## The two conditions, over the grid -/

/-- The body's first condition: the inner coordinate is 0. -/
abbrev atFirst (i : grid0.Coords) : Prop := (Scalar.cmpi .ne (Scalar.extui (Scalar.cmpi .eq (BitVec.ofNat 32 (i 1).val) 0#32)) 0#32) = 1#1
/-- It holds at the even points. -/
theorem atFirst_iff : ∀ t : Fin cfg0.N, atFirst (grid0.coords t) ↔ t.val % 2 = 0 :=
  (by decide +kernel : ∀ t : Fin grid0.N, atFirst (grid0.coords t) ↔ t.val % 2 = 0)

/-- The body's second condition: the inner coordinate is 1. -/
abbrev atLast (i : grid0.Coords) : Prop := k0_cond2 i = 1#1
/-- It holds at the odd points. -/
theorem atLast_iff : ∀ t : Fin cfg0.N, atLast (grid0.coords t) ↔ t.val % 2 = 1 :=
  (by decide +kernel : ∀ t : Fin grid0.N, atLast (grid0.coords t) ↔ t.val % 2 = 1)

/-! ## Where the output window is idle -/

theorem inLive : ∀ t : Fin cfg0.N, cfg0.idle 0 (grid0.coords t) = false := by decide +kernel
/-- At a first tile the body stores nothing into the output block, -/
theorem outIdle : ∀ t : Fin cfg0.N, ¬atLast (grid0.coords t) → cfg0.idle 1 (grid0.coords t) = true := by decide +kernel
/-- and the pipeline does not write it back there. -/
theorem outNoFlush : ∀ t : Fin cfg0.N, ¬atLast (grid0.coords t) → (cfg0.win 1).flush t = false := by decide +kernel
/-- At a last tile the block is stored. -/
theorem outLive : ∀ t : Fin cfg0.N, atLast (grid0.coords t) → cfg0.idle 1 (grid0.coords t) = false := by decide +kernel

/-! ## The memrefs the body is called on -/

/-- A staging buffer of the output window, through which its contents are stated. -/
abbrev outView : View sig .tc .vmem S8x128 .f32 := (Memref.whole cc0_stg1_0 : Memref sig .tc .vmem S8x128 .f32).view
abbrev sumM0 (t : Fin cfg0.N) : Memref sig .tc .vmem S1024x2048 .f32 := win0_0.stage (cfg0.slots t 0)
abbrev sumH0 (t : Fin cfg0.N) : (sumM0 t).IsWhole := hstage0_0 ((cfg0.slots t 0).cast nbuf0_0)
abbrev sumM1 (t : Fin cfg0.N) : Memref sig .tc .vmem S8x128 .f32 := win0_1.stage (cfg0.slots t 1)
abbrev sumH1 (t : Fin cfg0.N) : (sumM1 t).IsWhole := hstage0_1 ((cfg0.slots t 1).cast nbuf0_1)
/-- The 1×1 accumulator: a scoped buffer of the kernel's own, carried from point to point. -/
abbrev accM : Memref sig .tc .vmem S1x1 .f32 := Memref.whole cc0_scratch0
abbrev accView : View sig .tc .vmem S1x1 .f32 := accM.view

/-- The scoped buffers of the core other than this region's staging buffers and the accumulator (the other region's
    staging buffers), each whole at some contents: they ride through the region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region beside the windows: the accumulator at some contents, the other scoped buffers,
    the generator register at some state. -/
theorem sumPhiA (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## What the body leaves, through the payloads

The body's three stores are whole-buffer stores, so each buffer ends at the payload of its last store. -/

/-- The zero offsets of a whole-buffer rectangle, as a constant function. -/
theorem zeroOff : (![0, 0] : Fin 2 → Nat) = fun _ => 0 := by funext a; fin_cases a <;> rfl

abbrev rTile : Rect S1024x2048 := Rect.unit (s := S1024x2048) ![0, 0] S1024x2048.size inb_S1024x2048_S1024x2048_0_0
abbrev rAcc : Rect S1x1 := Rect.unit (s := S1x1) ![0, 0] S1x1.size inb_S1x1_S1x1_0_0
abbrev rOut : Rect S8x128 := Rect.unit (s := S8x128) ![0, 0] S8x128.size inb_S8x128_S8x128_0_0

/-- The accumulator after a first tile `x0`: zero, plus the tile's sum of logarithms. -/
def accFirst (x0 : Vec F S1024x2048 .f32) : Vec F S1x1 .f32 := k0_pay2 x0 (k0_pay1 (F := F))
/-- The accumulator after a later tile `x0`, carried in at `s0`: `s0` plus the tile's sum of logarithms. -/
def accNext (x0 : Vec F S1024x2048 .f32) (s0 : Vec F S1x1 .f32) : Vec F S1x1 .f32 := k0_pay2 x0 s0
/-- The output block after a last tile: the accumulator's new value in every entry. -/
def outLast (x0 : Vec F S1024x2048 .f32) (s0 : Vec F S1x1 .f32) : Vec F S8x128 .f32 := k0_pay3 (k0_pay2 x0 s0)

end Cert.Kernel.Frame

end
-- ==== Proof.Kernel.SumFirst.lean ====
/- The summing kernel's body at a FIRST tile (inner coordinate 0): the accumulator is zeroed, then the tile's sum of
   logarithms is added to it; the output block is left alone. -/
import proofs.«152096_j45028437131761_2_alg».proof.Proof.Kernel.SumShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a first tile, on whole memrefs — the input's at `x0`, the output block's at any `y1`, the accumulator's at
    anything — the body runs to the continuation holding the input and the output block as they were and the accumulator
    at `accFirst x0`: its second store, of the sum added to what its first store (the zero) left, is read back whole. -/
theorem sumFirst (c : Dev nD) (i : grid0.Coords) (a2 : Memref sig .tc .vmem S1024x2048 .f32) (h2 : a2.IsWhole)
    (a3 : Memref sig .tc .vmem S8x128 .f32) (h3 : a3.IsWhole) (a4 : Memref sig .tc .vmem S1x1 .f32) (h4 : a4.IsWhole)
    (hf : atFirst i) (hl : ¬atLast i) (x0 : Vec F S1024x2048 .f32) (y1 : Vec F S8x128 .f32) (E : Set ℕ) (K : PUnit → sProp 𝕄) :
    iprop(owns (c : Thread nD τ) a2 fullShare x0 ∗ owns (c : Thread nD τ) a3 fullShare y1 ∗ (∃ d, owns (c : Thread nD τ) a4 fullShare d)
        ∗ (iprop(owns (c : Thread nD τ) a2 fullShare x0 ∗ owns (c : Thread nD τ) a3 fullShare y1 ∗ owns (c : Thread nD τ) a4 fullShare (accFirst x0)) -∗ K ⟨⟩))
      ⊢ wp frame (wpE (defs₀ (F := F)) Variants.none c none) E (cc0__logdet_kernel i a2 h2 a3 h3 a4 h4) K := by
  simp only [cc0__logdet_kernel_eq_skeleton]; unfold cc0__logdet_kernel_skel
  unfold owns
  iintro ⟨⟨%f0, %hf0, H0⟩, ⟨%f1, %hf1, H1⟩, ⟨%ds, %fs, -, HS⟩, Hk⟩
  obtain rfl := h2.eq_unread hf0
  sl_exec (disch := first | exact hf | exact hl)
  sl_step
  iapply Hk
  isplitl [H0]
  · iexists _; isplitr; · ipureintro; exact h2.read_unread _
    iexact H0
  isplitl [H1]
  · iexists f1; isplitr; · ipureintro; exact hf1
    iexact H1
  iexists _; isplitr
  swap; · iexact HS
  ipureintro
  rw [View.read_writes_eq_canon _ _ _ (fun y => ⟨_, List.mem_cons_self, View.mem_set_unit_zero zeroOff inb_S1x1_S1x1_0_0 y⟩),
    View.canon_cons_unit_zero zeroOff]
  sl_unfold_run_names
  rw [View.readCov_unit_zero _ zeroOff, View.readAt_eq_ld, h2.read_unread, View.ld_unit_zero zeroOff]
  rfl

end Cert.Kernel.Frame

end
-- ==== Proof.Kernel.SumLast.lean ====
/- The summing kernel's body at a LAST tile (inner coordinate 1): the tile's sum of logarithms is added to the
   accumulator carried from the tile before, and the new value is broadcast into the output block. -/
import proofs.«152096_j45028437131761_2_alg».proof.Proof.Kernel.SumShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a last tile, on whole memrefs — the input's at `x0`, the output block's at anything, the accumulator's at the
    carried `s0` — the body runs to the continuation holding the input as it was, the accumulator at `accNext x0 s0`
    and the output block at `outLast x0 s0`: each is one whole-buffer store read back. -/
theorem sumLast (c : Dev nD) (i : grid0.Coords) (a2 : Memref sig .tc .vmem S1024x2048 .f32) (h2 : a2.IsWhole)
    (a3 : Memref sig .tc .vmem S8x128 .f32) (h3 : a3.IsWhole) (a4 : Memref sig .tc .vmem S1x1 .f32) (h4 : a4.IsWhole)
    (hf : ¬atFirst i) (hl : atLast i) (x0 : Vec F S1024x2048 .f32) (s0 : Vec F S1x1 .f32) (E : Set ℕ) (K : PUnit → sProp 𝕄) :
    iprop(owns (c : Thread nD τ) a2 fullShare x0 ∗ (∃ d, owns (c : Thread nD τ) a3 fullShare d) ∗ owns (c : Thread nD τ) a4 fullShare s0
        ∗ (iprop(owns (c : Thread nD τ) a2 fullShare x0 ∗ owns (c : Thread nD τ) a3 fullShare (outLast x0 s0) ∗ owns (c : Thread nD τ) a4 fullShare (accNext x0 s0)) -∗ K ⟨⟩))
      ⊢ wp frame (wpE (defs₀ (F := F)) Variants.none c none) E (cc0__logdet_kernel i a2 h2 a3 h3 a4 h4) K := by
  simp only [cc0__logdet_kernel_eq_skeleton]; unfold cc0__logdet_kernel_skel
  unfold owns
  iintro ⟨⟨%f0, %hf0, H0⟩, ⟨%d1, %f1, -, H1⟩, ⟨%fs, %hfs, HS⟩, Hk⟩
  obtain rfl := h2.eq_unread hf0; obtain rfl := h4.eq_unread hfs
  sl_exec (disch := first | exact hf | exact hl)
  sl_step
  iapply Hk
  isplitl [H0]
  · iexists _; isplitr; · ipureintro; exact h2.read_unread _
    iexact H0
  isplitl [H1]
  · iexists _; isplitr
    swap; · iexact H1
    ipureintro
    rw [View.read_writes_eq_canon _ _ _ (fun y => ⟨_, List.mem_cons_self, View.mem_set_unit_zero zeroOff inb_S8x128_S8x128_0_0 y⟩),
      View.canon_cons_unit_zero zeroOff]
    sl_unfold_run_names
    rw [View.readCov_unit_zero _ zeroOff]
    simp only [View.readAt_eq_ld, h2.read_unread, h4.read_unread, View.ld_unit_zero (S := S1024x2048) zeroOff, View.ld_unit_zero (S := S1x1) zeroOff]
    rfl
  iexists _; isplitr
  swap; · iexact HS
  ipureintro
  sl_unfold_run_names
  rw [View.read_writes_eq_canon _ _ _ (fun y => ⟨_, List.mem_cons_self, View.mem_set_unit_zero zeroOff inb_S1x1_S1x1_0_0 y⟩),
    View.canon_cons_unit_zero zeroOff]
  simp only [View.readAt_eq_ld, h2.read_unread, h4.read_unread, View.ld_unit_zero (S := S1024x2048) zeroOff, View.ld_unit_zero (S := S1x1) zeroOff]
  rfl

end Cert.Kernel.Frame

end
-- ==== Proof.Kernel.SumRegion.lean ====
/- The summing region as a whole: what the output block and the accumulator hold after each of the four grid
   points (by recursion on the point: a first tile starts the accumulator afresh, a last tile adds to what the tile
   before left), the invariant that carries the accumulator from point to point, the proof data, and the body
   obligation, by cases on the point's parity. Stated at any entry contents `V` and any float instance. -/
import proofs.«152096_j45028437131761_2_alg».proof.Proof.Kernel.SumFirst
import proofs.«152096_j45028437131761_2_alg».proof.Proof.Kernel.SumLast

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- The output block's staging buffer and the accumulator after the body at position `n`. At an even position (a first
    tile) the accumulator is `accFirst` of the tile and the output block is not stored (its component is a placeholder
    nothing reads: the window is idle there and not written back); at an odd position (a last tile) both come from the
    tile and the accumulator the position before left. -/
def sumAt (c : Dev nD) : (n : ℕ) → n < cfg0.N → Vec F S8x128 .f32 × Vec F S1x1 .f32
  | 0, hn => (k0_pay3 (accFirst (sumBlk V c 0 ⟨0, hn⟩)), accFirst (sumBlk V c 0 ⟨0, hn⟩))
  | n + 1, hn =>
    if (n + 1) % 2 = 1 then
      (outLast (sumBlk V c 0 ⟨n + 1, hn⟩) (sumAt c n (Nat.lt_of_succ_lt hn)).2,
        accNext (sumBlk V c 0 ⟨n + 1, hn⟩) (sumAt c n (Nat.lt_of_succ_lt hn)).2)
    else
      (k0_pay3 (accFirst (sumBlk V c 0 ⟨n + 1, hn⟩)), accFirst (sumBlk V c 0 ⟨n + 1, hn⟩))

theorem sumAt_first (c : Dev nD) (t : Fin cfg0.N) (h : t.val % 2 = 0) :
    sumAt V c t.val t.isLt = (k0_pay3 (accFirst (sumBlk V c 0 t)), accFirst (sumBlk V c 0 t)) := by
  obtain ⟨n, hn⟩ := t
  cases n with
  | zero => rfl
  | succ n => exact if_neg (by simp only at h; omega)

theorem sumAt_last (c : Dev nD) (t : Fin cfg0.N) (h : t.val % 2 = 1) :
    sumAt V c t.val t.isLt
      = (outLast (sumBlk V c 0 t) (sumAt V c (t.val - 1) (Nat.lt_of_le_of_lt (Nat.sub_le _ _) t.isLt)).2,
          accNext (sumBlk V c 0 t) (sumAt V c (t.val - 1) (Nat.lt_of_le_of_lt (Nat.sub_le _ _) t.isLt)).2) := by
  obtain ⟨n, hn⟩ := t
  cases n with
  | zero => exact absurd h (show ¬ (0 : ℕ) % 2 = 1 by decide)
  | succ n => exact if_pos (by simp only at h; omega)

/-! ## The invariant -/

/-- Before position `n`: at the start what the launch hands the region (the accumulator at anything); afterwards the
    accumulator at what the position before left, the other scoped buffers and the generator register riding along. -/
def sumPhi (c : Dev nD) : (n : ℕ) → n ≤ cfg0.N → sProp 𝕄
  | 0, _ => Pipeline.ΦA spec0 c
  | n + 1, hn => iprop(iprop(owns (c : Thread nD τ) accM fullShare ((sumAt V c n hn).2) ∗ otherScoped c) ∗ (∃ r, prngReg c r))

theorem sumPhi_zero (c : Dev nD) (n : ℕ) (h : n ≤ cfg0.N) (hz : n = 0) : sumPhi V c n h = Pipeline.ΦA spec0 c := by
  subst hz; rfl

theorem sumPhi_succ (c : Dev nD) (n : ℕ) (hn : n < cfg0.N) :
    sumPhi V c (n + 1) hn = iprop(iprop(owns (c : Thread nD τ) accM fullShare ((sumAt V c n hn).2) ∗ otherScoped c) ∗ (∃ r, prngReg c r)) := rfl

theorem sumPhi_pos (c : Dev nD) (n : ℕ) (h : n ≤ cfg0.N) (hz : n ≠ 0) :
    sumPhi V c n h = iprop(iprop(owns (c : Thread nD τ) accM fullShare ((sumAt V c (n - 1) (by omega)).2) ∗ otherScoped c) ∗ (∃ r, prngReg c r)) := by
  cases n with
  | zero => exact absurd rfl hz
  | succ n => rfl

/-! ## The proof data -/

/-- The region's proof data on core `c`: the arrays as the region finds them; after the body the input's buffer at its
    tile and the output block's at `sumAt`'s first component; the invariant `sumPhi`; nothing owed; full shares. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => (sumAt V c t.val t.isLt).1
  Φ t := sumPhi V c t.val (Nat.le_of_lt_succ t.isLt)
  q _ := fullShare
  owed _ := 0

theorem sumA (c : Dev nD) (w : Fin cfg0.W) : (sumDat V c).A w = V c (Pipeline.arrRef spec0 w) := by
  dsimp only [sumDat]

theorem sumPhi_castSucc (c : Dev nD) (t : Fin cfg0.N) :
    (sumDat V c).Φ t.castSucc = sumPhi V c t.val (Nat.le_of_lt t.isLt) := by
  dsimp only [sumDat]; simp only [Fin.coe_castSucc]

theorem sumAfter0 (c : Dev nD) (t : Fin cfg0.N) : (sumDat V c).after 0 t = sumBlk V c 0 t := by dsimp only [sumDat]
theorem sumAfter1 (c : Dev nD) (t : Fin cfg0.N) : (sumDat V c).after 1 t = (sumAt V c t.val t.isLt).1 := by dsimp only [sumDat]

theorem sumBefore0 (c : Dev nD) (t : Fin cfg0.N) (d) : (sumDat V c).before 0 t d = sumBlk V c 0 t :=
  sumBefore0_of V (sumDat V c) (sumA V c 0) (sumAfter0 V c) t d

/-! ## The body obligation -/

def sumPre (c : Dev nD) (t : Fin cfg0.N) : sProp 𝕄 :=
  iprop((sumDat V c).Φ t.castSucc ∗ (sumDat V c).owesAt () t.castSucc
    ∗ (∃ d, owns (c : Thread nD τ) (sumM0 t) fullShare ((sumDat V c).before 0 t d))
    ∗ (∃ d, owns (c : Thread nD τ) (sumM1 t) fullShare ((sumDat V c).before 1 t d)))

def sumPost (c : Dev nD) (t : Fin cfg0.N) : sProp 𝕄 :=
  iprop((sumDat V c).Φ t.succ ∗ (sumDat V c).owesAt () t.succ
    ∗ (sumDat V c).leavesExact 0 t
    ∗ (sumDat V c).leavesExact 1 t)

set_option maxHeartbeats 2000000 in
/-- The body at any point. At an even point the invariant hands the accumulator over at anything (the launch's, or what
    the half before left: either way it is overwritten) and takes it back at `accFirst` of the tile; the output block's
    buffer goes back as found. At an odd point the invariant hands the accumulator over at what the point before left and
    takes it back with the tile's sum added; the output block's buffer comes back at the broadcast. -/
theorem sumBody (c : Dev nD) (t : Fin cfg0.N) :
    sumPre V c t ⊢ wp frame (wpE (defs₀ (F := F)) Variants.none c none) Set.univ (bodyAt0 t) (fun _ => sumPost V c t) := by
  unfold sumPre sumPost bodyAt0
  simp only [sumBefore0]
  rw [show (sumDat V c).owesAt () t.succ = (sumDat V c).owesAt () t.castSucc from rfl]
  rw [show (sumDat V c).Φ t.succ = sumPhi V c (t.val + 1) t.isLt from rfl, sumPhi_succ]
  have hN : t.val < 4 := lt_of_lt_of_eq t.isLt (show cfg0.N = 4 from N_0)
  rw [show (sumDat V c).leavesExact 0 t = owns (c : Thread nD τ) (sumM0 t) fullShare ((sumDat V c).after 0 t) from by
    unfold Dat.leavesExact; rw [inLive t], sumAfter0]
  by_cases hp : t.val % 2 = 0
  · have hf : atFirst (grid0.coords t) := (atFirst_iff t).mpr hp
    have hl : ¬atLast (grid0.coords t) := fun h => by have := (atLast_iff t).mp h; omega
    rw [Dat.leavesExact_idle (sumDat V c) 1 t (outIdle t hl) (outNoFlush t hl)]
    rw [sumAt_first V c t hp]
    by_cases hz : t.val = 0
    · rw [sumPhi_castSucc V c t, sumPhi_zero V c _ _ hz, sumPhiA]
      iintro ⟨⟨⟨HS, Hoth⟩, Hg⟩, Ho, ⟨%d0, H0⟩, ⟨%d1, H1⟩⟩
      iapply (sumFirst c (grid0.coords t) _ _ _ _ _ _ hf hl (sumBlk V c 0 t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
    · rw [sumPhi_castSucc V c t, sumPhi_pos V c _ _ hz]
      iintro ⟨⟨⟨HS, Hoth⟩, Hg⟩, Ho, ⟨%d0, H0⟩, ⟨%d1, H1⟩⟩
      iapply (sumFirst c (grid0.coords t) _ _ _ _ _ _ hf hl (sumBlk V c 0 t) _ Set.univ _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
  · have hp1 : t.val % 2 = 1 := by omega
    have hf : ¬atFirst (grid0.coords t) := fun h => hp ((atFirst_iff t).mp h)
    have hl : atLast (grid0.coords t) := (atLast_iff t).mpr hp1
    rw [show (sumDat V c).leavesExact 1 t = owns (c : Thread nD τ) (sumM1 t) fullShare ((sumDat V c).after 1 t) from by
      unfold Dat.leavesExact; rw [outLive t hl], sumAfter1]
    rw [sumAt_last V c t hp1]
    have hz : t.val ≠ 0 := by omega
    rw [sumPhi_castSucc V c t, sumPhi_pos V c _ _ hz]
    iintro ⟨⟨⟨HS, Hoth⟩, Hg⟩, Ho, ⟨%d0, H0⟩, ⟨%d1, H1⟩⟩
    iapply (sumLast c (grid0.coords t) _ _ _ _ _ _ hf hl (sumBlk V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1

theorem sumObligation (c : Dev nD) : BodyObligation (sumDat (F := F) V c) (defs₀ (F := F)) Variants.none () Set.univ := fun t => by
  rw [bigSep_W0, bigSep_W0]
  exact sumBody V c t

/-- What the launch hands the region is the invariant before the first point. -/
theorem sumIn (c : Dev nD) : Pipeline.ΦA spec0 c ⊢ (sumDat V c).Φ 0 := by
  rw [show (sumDat V c).Φ 0 = sumPhi V c 0 (Nat.zero_le _) from rfl, sumPhi_zero V c 0 _ rfl]
  try exact Idealize.SL.BI.Entails.refl _

/-- After the last point the invariant gives that back, the accumulator's contents forgotten. -/
theorem sumOut (c : Dev nD) : (sumDat V c).Φ (Fin.last cfg0.N) ⊢ Pipeline.ΦA spec0 c := by
  rw [show (sumDat V c).Φ (Fin.last cfg0.N) = sumPhi V c (Fin.last cfg0.N).val (Nat.le_of_lt_succ (Fin.last cfg0.N).isLt) from rfl,
    sumPhi_pos V c _ _ (by rw [Fin.val_last]; have : cfg0.N = 4 := N_0; omega), sumPhiA]
  iintro ⟨⟨HS, Hoth⟩, Hg⟩
  isplitl [HS Hoth]
  · isplitl [HS]; · iexists _; iexact HS
    iexact Hoth
  iexact Hg

end Cert.Kernel.Frame

end
-- ==== Proof.Kernel.LossRegion.lean ====
/- The elementwise region (the second kernel call): per grid point i it reads block i of the mean half of
   `output` (rows 512 i ..), block i + 8 of the same array (the variance half), block i of `target` and the 1×1 sum of
   logs, and stores the whole 512×2048 output block. Two of its windows read ONE array, so each holds it at half a
   share. Stated at any contents `V` of the buffers when the region is entered, and at any float instance. -/
import proofs.«152096_j45028437131761_2_alg».proof.Proof.Gen.Kernel.Launch
import proofs.«152096_j45028437131761_2_alg».proof.Proof.Gen.Kernel.Skeleton
import proofs.«152096_j45028437131761_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def lossBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data over `V` whose body leaves the block in place: one statement per
    input window, since a window's block type is read off its literal position. -/
theorem lossBefore0_of {c : Dev nD} (dat : Dat τ (Elt F) Unit ℕ (UR sig nD τ) ℕ cfg1 c) (hA : dat.A 0 = V c (Pipeline.arrRef spec1 0))
    (hafter : ∀ t, dat.after 0 t = lossBlk V c 0 t) (t : Fin cfg1.N) (d) : dat.before 0 t d = lossBlk V c 0 t :=
  (dat.before_in_eq_fetched 0 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore1_of {c : Dev nD} (dat : Dat τ (Elt F) Unit ℕ (UR sig nD τ) ℕ cfg1 c) (hA : dat.A 1 = V c (Pipeline.arrRef spec1 1))
    (hafter : ∀ t, dat.after 1 t = lossBlk V c 1 t) (t : Fin cfg1.N) (d) : dat.before 1 t d = lossBlk V c 1 t :=
  (dat.before_in_eq_fetched 1 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore2_of {c : Dev nD} (dat : Dat τ (Elt F) Unit ℕ (UR sig nD τ) ℕ cfg1 c) (hA : dat.A 2 = V c (Pipeline.arrRef spec1 2))
    (hafter : ∀ t, dat.after 2 t = lossBlk V c 2 t) (t : Fin cfg1.N) (d) : dat.before 2 t d = lossBlk V c 2 t :=
  (dat.before_in_eq_fetched 2 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore3_of {c : Dev nD} (dat : Dat τ (Elt F) Unit ℕ (UR sig nD τ) ℕ cfg1 c) (hA : dat.A 3 = V c (Pipeline.arrRef spec1 3))
    (hafter : ∀ t, dat.after 3 t = lossBlk V c 3 t) (t : Fin cfg1.N) (d) : dat.before 3 t d = lossBlk V c 3 t :=
  (dat.before_in_eq_fetched 3 rfl (fun _ => rfl) (fun _ _ _ => rfl) (fun t => by rw [hafter]; unfold Dat.blockOf lossBlk; rw [hA]; try rfl) t d).trans
    (by unfold Dat.fetched Dat.blockOf lossBlk; rw [hA]; try rfl)

/-! ## What the body leaves in the output block -/

abbrev rBig : Rect S512x2048 := Rect.unit (s := S512x2048) ![0, 0] S512x2048.size inb_S512x2048_S512x2048_0_0
abbrev rOne : Rect S1x1 := Rect.unit (s := S1x1) ![0, 0] S1x1.size inb_S1x1_S1x1_0_0

/-- The output block after the body: its one whole-block store of the payload of the four blocks read. -/
def lossOut (x0 x1 x2 : Vec F S512x2048 .f32) (x3 : Vec F S1x1 .f32) : Vec F S512x2048 .f32 :=
  View.canon [⟨rBig, k1_pay1 (View.ld x0 rBig) (View.ld x2 rBig) (View.ld x1 rBig) (View.ld x3 rOne)⟩]

/-- The one store covers the block. -/
theorem lossCover (p0 : Vec F S512x2048 .f32) (y : S512x2048.Idx) :
    ∃ pc ∈ ([⟨rBig, p0⟩] : List (View.Piece (Elt F) S512x2048 .f32)), y ∈ pc.1.set :=
  View.cover_of_tiled [⟨rBig, p0⟩] S512x2048.size (by rfl) y

/-! ## The body's triple -/

set_option maxHeartbeats 1000000 in
/-- On whole staging memrefs, the four inputs at contents `x0 … x3` and the output at anything, the body runs to the
    continuation holding the inputs as they were and the output block at `lossOut` of them. -/
theorem lossKernel (c : Dev nD) (E : Set ℕ) (i : grid1.Coords)
    (a1 : Memref sig .tc .vmem S512x2048 .f32) (h1 : a1.IsWhole) (a2 : Memref sig .tc .vmem S512x2048 .f32) (h2 : a2.IsWhole)
    (a3 : Memref sig .tc .vmem S512x2048 .f32) (h3 : a3.IsWhole) (a4 : Memref sig .tc .vmem S1x1 .f32) (h4 : a4.IsWhole)
    (a5 : Memref sig .tc .vmem S512x2048 .f32) (h5 : a5.IsWhole)
    (x0 x1 x2 : Vec F S512x2048 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (lossOut x0 x1 x2 x3)) -∗ K ⟨⟩))
      ⊢ wp frame (wpE (defs₀ (F := F)) Variants.none c none) E (cc1__main_kernel i a1 h1 a2 h2 a3 h3 a4 h4 a5 h5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (lossCover _)

/-! ## The proof data -/

/-- The region's proof data on core `c`: the arrays as the region finds them; after the body each input's buffer at its
    block, the output's at `lossOut` of the four blocks; the invariant the scoped rest and the generator register,
    untouched; nothing owed; the two windows on `output` each at half a share, the others at the full one. -/
def lossDat (c : Dev nD) : Dat τ (Elt F) Unit ℕ (UR sig nD τ) ℕ cfg1 c where
  A w := V c (Pipeline.arrRef spec1 w)
  after w t := match w with
    | ⟨0, _⟩ => lossBlk V c 0 t
    | ⟨1, _⟩ => lossBlk V c 1 t
    | ⟨2, _⟩ => lossBlk V c 2 t
    | ⟨3, _⟩ => lossBlk V c 3 t
    | ⟨4, _⟩ => lossOut (lossBlk V c 0 t) (lossBlk V c 1 t) (lossBlk V c 2 t) (lossBlk V c 3 t)
  Φ _ := Pipeline.ΦA spec1 c
  q w := match w with
    | ⟨0, _⟩ => fullShare.left
    | ⟨1, _⟩ => fullShare.right
    | _ => fullShare
  owed _ := 0

theorem lossA (c : Dev nD) (w : Fin cfg1.W) : (lossDat V c).A w = V c (Pipeline.arrRef spec1 w) := by
  dsimp only [lossDat]

theorem lossAfter0 (c : Dev nD) (t : Fin cfg1.N) : (lossDat V c).after 0 t = lossBlk V c 0 t := by dsimp only [lossDat]
theorem lossAfter1 (c : Dev nD) (t : Fin cfg1.N) : (lossDat V c).after 1 t = lossBlk V c 1 t := by dsimp only [lossDat]
theorem lossAfter2 (c : Dev nD) (t : Fin cfg1.N) : (lossDat V c).after 2 t = lossBlk V c 2 t := by dsimp only [lossDat]
theorem lossAfter3 (c : Dev nD) (t : Fin cfg1.N) : (lossDat V c).after 3 t = lossBlk V c 3 t := by dsimp only [lossDat]
theorem lossAfter4 (c : Dev nD) (t : Fin cfg1.N) :
    (lossDat V c).after 4 t = lossOut (lossBlk V c 0 t) (lossBlk V c 1 t) (lossBlk V c 2 t) (lossBlk V c 3 t) := by dsimp only [lossDat]

theorem lossBefore0 (c : Dev nD) (t : Fin cfg1.N) (d) : (lossDat V c).before 0 t d = lossBlk V c 0 t :=
  lossBefore0_of V (lossDat V c) (lossA V c 0) (lossAfter0 V c) t d
theorem lossBefore1 (c : Dev nD) (t : Fin cfg1.N) (d) : (lossDat V c).before 1 t d = lossBlk V c 1 t :=
  lossBefore1_of V (lossDat V c) (lossA V c 1) (lossAfter1 V c) t d
theorem lossBefore2 (c : Dev nD) (t : Fin cfg1.N) (d) : (lossDat V c).before 2 t d = lossBlk V c 2 t :=
  lossBefore2_of V (lossDat V c) (lossA V c 2) (lossAfter2 V c) t d
theorem lossBefore3 (c : Dev nD) (t : Fin cfg1.N) (d) : (lossDat V c).before 3 t d = lossBlk V c 3 t :=
  lossBefore3_of V (lossDat V c) (lossA V c 3) (lossAfter3 V c) t d

/-! ## The body obligation -/

def lossPre (c : Dev nD) (t : Fin cfg1.N) : sProp 𝕄 :=
  iprop((lossDat V c).Φ t.castSucc ∗ (lossDat V c).owesAt () t.castSucc
    ∗ (∃ d, owns (c : Thread nD τ) (st1_0 t) fullShare ((lossDat V c).before 0 t d))
    ∗ (∃ d, owns (c : Thread nD τ) (st1_1 t) fullShare ((lossDat V c).before 1 t d))
    ∗ (∃ d, owns (c : Thread nD τ) (st1_2 t) fullShare ((lossDat V c).before 2 t d))
    ∗ (∃ d, owns (c : Thread nD τ) (st1_3 t) fullShare ((lossDat V c).before 3 t d))
    ∗ (∃ d, owns (c : Thread nD τ) (st1_4 t) fullShare ((lossDat V c).before 4 t d)))

def lossPost (c : Dev nD) (t : Fin cfg1.N) : sProp 𝕄 :=
  iprop((lossDat V c).Φ t.succ ∗ (lossDat V c).owesAt () t.succ
    ∗ owns (c : Thread nD τ) (st1_0 t) fullShare ((lossDat V c).after 0 t)
    ∗ owns (c : Thread nD τ) (st1_1 t) fullShare ((lossDat V c).after 1 t)
    ∗ owns (c : Thread nD τ) (st1_2 t) fullShare ((lossDat V c).after 2 t)
    ∗ owns (c : Thread nD τ) (st1_3 t) fullShare ((lossDat V c).after 3 t)
    ∗ owns (c : Thread nD τ) (st1_4 t) fullShare ((lossDat V c).after 4 t))

/-- The body at any point: the inputs' buffers hold their blocks, so the triple applies; the invariant and the
    core's dues pass through unread. -/
theorem lossBody (c : Dev nD) (t : Fin cfg1.N) :
    lossPre V c t ⊢ wp frame (wpE (defs₀ (F := F)) Variants.none c none) Set.univ (bodyAt1 t) (fun _ => lossPost V c t) := by
  unfold lossPre lossPost bodyAt1
  simp only [lossBefore0, lossBefore1, lossBefore2, lossBefore3]
  rw [show (lossDat V c).Φ t.succ = (lossDat V c).Φ t.castSucc from rfl,
    show (lossDat V c).owesAt () t.succ = (lossDat V c).owesAt () t.castSucc from rfl,
    lossAfter0, lossAfter1, lossAfter2, lossAfter3, lossAfter4]
  iintro ⟨HΦ, Ho, ⟨%d0, H0⟩, ⟨%d1, H1⟩, ⟨%d2, H2⟩, ⟨%d3, H3⟩, ⟨%d4, H4⟩⟩
  iapply (lossKernel c Set.univ _ _ _ _ _ _ _ _ _ _ _ (lossBlk V c 0 t) (lossBlk V c 1 t) (lossBlk V c 2 t) (lossBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem lossObligation (c : Dev nD) : BodyObligation (lossDat (F := F) V c) (defs₀ (F := F)) Variants.none () Set.univ := fun t => by
  rw [bigSep_W1, bigSep_W1]
  exact lossBody V c t

end Cert.Kernel.Frame

end
-- ==== Proof.Kernel.Buffers.lean ====
/- Core `c`'s unscoped buffers followed through @main's three items — the summing region, six host operations on
   its result, the elementwise region. The summing region changes only its output array, the host operations only their
   own results, the elementwise region only the result array; so both argument arrays end as launched, and the result
   array ends at what the elementwise region's write-backs leave. -/
import proofs.«152096_j45028437131761_2_alg».proof.Proof.Kernel.SumRegion
import proofs.«152096_j45028437131761_2_alg».proof.Proof.Kernel.LossRegion

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch; -/
abbrev buf0 : Dev nD → Valuation τ sig (Elt F) := fun c b => m (c, b)
abbrev at0 : (c : Dev nD) → (b : Ref sig .tc) → Buf (Elt F) ((c : Thread nD τ).loc b) := fun c b => buf0 m c b

/-- what the summing region leaves in its output array (the entry contents, the two written-back blocks folded in); -/
def sums (c : Dev nD) : Buf (Elt F) ((c : Thread nD τ).loc main_v0) := (sumDat (at0 m) c).arrAt 1 cfg0.N
/-- the buffers after the summing region: that array changed, nothing else; -/
def buf1 (c : Dev nD) : Valuation τ sig (Elt F) := Function.update (buf0 m c) (Proc.devRef .tc main_v0) (sums m c)
abbrev at1 : (c : Dev nD) → (b : Ref sig .tc) → Buf (Elt F) ((c : Thread nD τ).loc b) := fun c b => buf1 m c b

/-- after the six host operations; -/
abbrev buf2 : Dev nD → Valuation τ sig (Elt F) := fun c => StableHlo.after hostOps1 (buf1 m c)
abbrev at2 : (c : Dev nD) → (b : Ref sig .tc) → Buf (Elt F) ((c : Thread nD τ).loc b) := fun c b => buf2 m c b

/-- what the elementwise region leaves in the result array; -/
def loss (c : Dev nD) : Buf (Elt F) ((c : Thread nD τ).loc main_v7) := (lossDat (at2 m) c).arrAt 4 cfg1.N
/-- and the buffers at the end: the result array changed, nothing else. -/
def buf3 (c : Dev nD) : Valuation τ sig (Elt F) := Function.update (buf2 m c) (Proc.devRef .tc main_v7) (loss m c)
abbrev at3 : (c : Dev nD) → (b : Ref sig .tc) → Buf (Elt F) ((c : Thread nD τ).loc b) := fun c b => buf3 m c b

theorem at1_v0 (c : Dev nD) : at1 m c main_v0 = sums m c := by
  show Function.update (buf0 m c) (Proc.devRef .tc main_v0) (sums m c) (Proc.devRef .tc main_v0) = _
  exact Function.update_self ..
theorem at1_of_ne (c : Dev nD) (b : Ref sig .tc) (h : b ≠ main_v0) : at1 m c b = at0 m c b := by
  show Function.update (buf0 m c) (Proc.devRef .tc main_v0) (sums m c) (Proc.devRef .tc b) = _
  exact Function.update_of_ne (StableHlo.devRef_ne_of_ne h) ..
theorem at3_v7 (c : Dev nD) : at3 m c main_v7 = loss m c := by
  show Function.update (buf2 m c) (Proc.devRef .tc main_v7) (loss m c) (Proc.devRef .tc main_v7) = _
  exact Function.update_self ..
theorem at3_of_ne (c : Dev nD) (b : Ref sig .tc) (h : b ≠ main_v7) : at3 m c b = at2 m c b := by
  show Function.update (buf2 m c) (Proc.devRef .tc main_v7) (loss m c) (Proc.devRef .tc b) = _
  exact Function.update_of_ne (StableHlo.devRef_ne_of_ne h) ..

/-- No host operation writes a buffer outside its own results. -/
theorem hostOps1_writes' : (hostOps1 : List (HloOp τ sig (Elt F))).Forall fun op => op.writes ⊆ (([main_v1, main_v2, main_v3, main_v4, main_v5, main_v6] : List (Ref sig .tc)).map (Proc.devRef (τ := τ) .tc)).toFinset := by
  simp only [List.Forall]
  refine ⟨?_, ?_, ?_, ?_, ?_, ?_⟩ <;>
    (simp only [StableHlo.unary_writes, StableHlo.binary_writes, StableHlo.reshape_writes, Finset.singleton_subset_iff, List.mem_toFinset]
     exact List.mem_map_of_mem (by decide))
theorem at2_of_not_mem (c : Dev nD) (b : Ref sig .tc) (h : b ∉ ([main_v1, main_v2, main_v3, main_v4, main_v5, main_v6] : List (Ref sig .tc))) :
    at2 m c b = at1 m c b :=
  StableHlo.after_of_writes_sub hostOps1 _ hostOps1_writes' h

/-- At the summing region's exit each of its arrays holds what the pipeline leaves, every other buffer what it held. -/
theorem sumExit (c : Dev nD) (w : Fin cfg0.W) : (sumDat (at0 m) c).arrAt w cfg0.N = at1 m c (Pipeline.arrRef spec0 w) :=
  match w with
  | ⟨0, _⟩ => ((sumDat (at0 m) c).arrAt_in 0 rfl _).trans ((sumA (at0 m) c 0).trans (at1_of_ne m c main_arg0 (by decide)).symm)
  | ⟨1, _⟩ => (at1_v0 m c).symm
theorem sumRest (c : Dev nD) : ∀ b, b ∉ Finset.univ.image (Pipeline.arrRef spec0) → at1 m c b = at0 m c b :=
  fun b hb => at1_of_ne m c b fun e => hb (Finset.mem_image.mpr ⟨1, Finset.mem_univ _, e.symm⟩)

/-- At the elementwise region's exit: the four inputs as entered, the result array at what the pipeline leaves. -/
theorem lossExit (c : Dev nD) (w : Fin cfg1.W) : (lossDat (at2 m) c).arrAt w cfg1.N = at3 m c (Pipeline.arrRef spec1 w) :=
  match w with
  | ⟨0, _⟩ => ((lossDat (at2 m) c).arrAt_in 0 rfl _).trans ((lossA (at2 m) c 0).trans (at3_of_ne m c main_arg0 (by decide)).symm)
  | ⟨1, _⟩ => ((lossDat (at2 m) c).arrAt_in 1 rfl _).trans ((lossA (at2 m) c 1).trans (at3_of_ne m c main_arg0 (by decide)).symm)
  | ⟨2, _⟩ => ((lossDat (at2 m) c).arrAt_in 2 rfl _).trans ((lossA (at2 m) c 2).trans (at3_of_ne m c main_arg1 (by decide)).symm)
  | ⟨3, _⟩ => ((lossDat (at2 m) c).arrAt_in 3 rfl _).trans ((lossA (at2 m) c 3).trans (at3_of_ne m c main_v6 (by decide)).symm)
  | ⟨4, _⟩ => (at3_v7 m c).symm

/-! ## The arguments end as launched -/

theorem at3_arg0 (c : Dev nD) : at3 m c main_arg0 = m ((c : Thread nD τ).loc main_arg0) :=
  (at3_of_ne m c main_arg0 (by decide)).trans <| (at2_of_not_mem m c main_arg0 (by decide)).trans <| (at1_of_ne m c main_arg0 (by decide)).trans rfl
theorem at3_arg1 (c : Dev nD) : at3 m c main_arg1 = m ((c : Thread nD τ).loc main_arg1) :=
  (at3_of_ne m c main_arg1 (by decide)).trans <| (at2_of_not_mem m c main_arg1 (by decide)).trans <| (at1_of_ne m c main_arg1 (by decide)).trans rfl

end Cert.Kernel.Frame

end
-- ==== Proof.Kernel.LossShares.lean ====
/- The elementwise region's arrays against the buffers behind them. Its five windows sit on FOUR buffers — the
   mean and the variance windows both read `output` —, so holding the windows' arrays (the two on `output` at half a share
   each, the others whole) is the same as holding the four buffers whole, at any contents on which the two agree. -/
import proofs.«152096_j45028437131761_2_alg».proof.Proof.Kernel.LossRegion

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's windows. -/
theorem lossArrRefs : (Finset.univ.image (Pipeline.arrRef spec1) : Finset (Ref sig .tc)) = {main_arg0, main_arg1, main_v6, main_v7} := by decide

/-- The region's arrays, window by window: whole buffers, the two windows on `output` at the two halves of the share. -/
theorem lossArrays (c : Dev nD) (A : (w : Fin cfg1.W) → Buf (Elt F) ((cfg1.win w).arr.view.loc (c.tc : Thread nD τ))) :
    ((lossDat V c).arrays A : sProp 𝕄)
      = iprop((((c.tc : Thread nD τ).loc (Pipeline.arrRef spec1 0)) ↦{fullShare.left} A 0)
          ∗ (((c.tc : Thread nD τ).loc (Pipeline.arrRef spec1 1)) ↦{fullShare.right} A 1)
          ∗ (((c.tc : Thread nD τ).loc (Pipeline.arrRef spec1 2)) ↦{fullShare} A 2)
          ∗ (((c.tc : Thread nD τ).loc (Pipeline.arrRef spec1 3)) ↦{fullShare} A 3)
          ∗ (((c.tc : Thread nD τ).loc (Pipeline.arrRef spec1 4)) ↦{fullShare} A 4)) := by
  unfold Dat.arrays
  -- the first rewrite serves both windows on `output`: they have one array
  rw [bigSep_W1, (arr_whole1 0).set_eq_univ, (arr_whole1 2).set_eq_univ, (arr_whole1 3).set_eq_univ, (arr_whole1 4).set_eq_univ]
  rfl

/-- The four buffers whole at contents `W`, one by one. -/
theorem lossBufs (c : Dev nD) (W : (b : Ref sig .tc) → Buf (Elt F) ((c : Thread nD τ).loc b)) :
    (Pipeline.arrBufs spec1 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v6) ↦{fullShare} W main_v6) ∗ (((c.tc : Thread nD τ).loc main_v7) ↦{fullShare} W main_v7)) := by
  unfold Pipeline.arrBufs
  rw [lossArrRefs, bigSep_insert (by decide), bigSep_insert (by decide), bigSep_insert (by decide), bigSep_singleton]
  rfl

/-- The arrays at contents `A` are the four buffers at any `W` that has those contents: the two halves of `output`
    join into the whole and split back. -/
theorem lossArrays_bufs (c : Dev nD) (A : (w : Fin cfg1.W) → Buf (Elt F) ((cfg1.win w).arr.view.loc (c.tc : Thread nD τ)))
    (W : (b : Ref sig .tc) → Buf (Elt F) ((c : Thread nD τ).loc b)) (hA : ∀ w, A w = W (Pipeline.arrRef spec1 w)) :
    ((lossDat V c).arrays A : sProp 𝕄) ⊣⊢ Pipeline.arrBufs spec1 c W := by
  rw [lossArrays, lossBufs, hA 0, hA 1, hA 2, hA 3, hA 4]
  constructor
  · iintro ⟨Hl, Hr, H1, H6, H7⟩
    isplitl [Hl Hr]
    · iapply (pointsTo_share (PosShare.mem_left_op_right fullShare)).2
      isplitl [Hl]; · iexact Hl
      iexact Hr
    isplitl [H1]; · iexact H1
    isplitl [H6]; · iexact H6
    iexact H7
  · iintro ⟨H0, H1, H6, H7⟩
    ihave H0' := (pointsTo_share (PosShare.mem_left_op_right fullShare)).1 $$ H0
    icases H0' with ⟨Hl, Hr⟩
    isplitl [Hl]; · iexact Hl
    isplitl [Hr]; · iexact Hr
    isplitl [H1]; · iexact H1
    isplitl [H6]; · iexact H6
    iexact H7

end Cert.Kernel.Frame

end
-- ==== Proof.Kernel.Run.lean ====
/- The whole run: @main is the summing region, six host operations on its result, and the elementwise region. Each
   region is packed as a segment between the buffer states that follow the unscoped buffers through the three items, and
   every weakly fair execution of @main ends with every unscoped buffer at the last of these states. The frame claim reads the two argument arrays off it; a value claim
   reads the result array. -/
import proofs.«152096_j45028437131761_2_alg».proof.Proof.Kernel.Buffers
import proofs.«152096_j45028437131761_2_alg».proof.Proof.Kernel.LossShares

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => sumDat (at0 m) c
  | ⟨1, _⟩ => fun c => lossDat (at2 m) c
abbrev noVariants : Variants := Variants.none
abbrev noLevels : GSem nD τ sig → Finset Unit := fun _ => ∅
abbrev lvl0 : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)

theorem hostOps1_fresh' : (hostOps1 : List (HloOp τ sig (Elt F))).Forall fun op => op.fresh = ∅ := by
  simp only [List.Forall]; repeat' constructor

/-- The host operations as a segment from the buffers after the summing region. -/
abbrev hostSeg : Pipeline.HostSeg (Name := ℕ) (U := UR sig nD τ) (pcfgs (F := F)) defs₀ noVariants noLevels lvl0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) (buf1 m) riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev lastState (c : Dev nD) : sProp 𝕄 := iprop(StableHlo.held (c : Thread nD τ) (Pipeline.ucRefs τ sig) (buf3 m c) ∗ ∃ r, prngReg c r)

/-! ## The regions as segments -/

set_option backward.isDefEq.respectTransparency.types false in
/-- The summing region between the launch's buffers and `buf1`: its two arrays are split out of the unscoped buffers at
    entry and put back at their final contents at exit; the generator register and the scoped rest go into the
    region's invariant and come back; nothing is owed; the kernel has no semaphore of its own. -/
def sumSeg : Pipeline.RegionSeg (pcfgs (F := F)) noTables (pdats m) () defs₀ noVariants noLevels lvl0 0 where
  win := launch0.win.to₀
  block_pos := launch0.block_pos
  stage_whole := launch0.stage_whole
  K := PEmpty
  osem k := k.elim
  ho := Pipeline.OwnSemFacts.none _
  hbody c := (sumObligation (at0 m) c).loose
  hwaits := Pipeline.hwaits_of_owed_zero _ _ _ _ noLevels lvl0 0 fun _ _ => rfl
  pre c := iprop(StableHlo.held (c : Thread nD τ) (Pipeline.ucRefs τ sig) (buf0 m c) ∗ riding c)
  post c := iprop(StableHlo.held (c : Thread nD τ) (Pipeline.ucRefs τ sig) (buf1 m c) ∗ riding c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from sumIn (at0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from sumOut (at0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at0 m c) (at1 m c) ((pdats m 0 c).arrAt · cfg0.N) (sumExit m c) (sumRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The elementwise region between `buf2` and the last state. Its windows sit on four buffers: at entry these are split
    out of the unscoped buffers and `output`'s is halved between its two windows; at exit the halves are joined and the
    four put back, the result array at what the pipeline leaves. -/
def lossSeg : Pipeline.RegionSeg (pcfgs (F := F)) noTables (pdats m) () defs₀ noVariants noLevels lvl0 1 where
  win := winFacts₀1
  block_pos := block_pos1
  stage_whole := stage_whole1
  K := PEmpty
  osem k := k.elim
  ho := Pipeline.OwnSemFacts.none _
  hbody c := (lossObligation (at2 m) c).loose
  hwaits := Pipeline.hwaits_of_owed_zero _ _ _ _ noLevels lvl0 1 fun _ _ => rfl
  pre c := iprop(StableHlo.held (c : Thread nD τ) (Pipeline.ucRefs τ sig) (buf2 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit : (unscopedBufs c (at2 m c) : sProp 𝕄) ⊢ iprop((pdats m 1 c).arrays ((pdats m 1 c).arrAt · 0) ∗ Pipeline.unscopedRest spec1 c (at2 m c)) := by
      rw [Pipeline.unscopedBufs_split₀ (Pipeline.pin (pcfgs (F := F)) noTables) 1 winFacts₀1.arr_unscoped c (at2 m c)]
      exact sep_mono (lossArrays_bufs (at2 m) c _ (at2 m c) fun _ => rfl).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (at2 m c)) ⊢ (unscopedBufs c (at3 m c) : sProp 𝕄) := by
      rw [Pipeline.unscopedBufs_split₀ (Pipeline.pin (pcfgs (F := F)) noTables) 1 winFacts₀1.arr_unscoped c (at3 m c)]
      refine sep_mono (lossArrays_bufs (at2 m) c _ (at3 m c) (lossExit m c)).1 (Entails.of_eq ?_)
      unfold Pipeline.unscopedRest
      exact bigSep_congr fun b hb => by
        rw [at3_of_ne m c b fun e => (Finset.mem_sdiff.mp hb).2 (Finset.mem_image.mpr ⟨4, Finset.mem_univ _, e.symm⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) noTables (pdats m) () defs₀ noVariants noLevels lvl0) :=
  [ .region (sumSeg m), .host (hostSeg m), .region (lossSeg m) ]

/-- @main is the run of the three segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each unscoped buffer of each core holds `buf3`'s contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = buf3 m c b) :=
  Pipeline.θ_run_regions_kit (pcfgs (F := F)) noTables (pdats m) () cellOf_inj emb₁ defs₀ noVariants noLevels lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ riding c)) (Tₙ := lastState m)
    (hch := ⟨fun _ => .rfl, fun _ => .rfl, fun _ => .rfl, fun _ => .rfl⟩)
    (hinit := by
      refine Pipeline.initEach noLevels lvl0 fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf3 m c b)
    (hfin := fun c s' => by
      iintro ⟨⟨Hh, -⟩, HSI⟩
      unfold StableHlo.held
      imodintro
      iapply (pointsTo_read_all (Pipeline.ucRefs τ sig) (fun b => (((c : Thread nD τ)).1, b)) (buf3 m c) s')
      isplitl [Hh] <;> iassumption)
    (hQ := fun s h c => h c)

/-- THE FRAME: every weakly fair execution terminates with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (at3_arg0 m c), (h c _ (mem_uc main_arg1 (by decide))).trans (at3_arg1 m c)⟩) (run_all m ρ)

end Cert.Kernel.Frame

end
-- ==== Proof.KernelIdeal.SumShared.lean ====
/- The summing region (the first kernel call), what its two cases share. The grid is 2 × 2: the outer coordinate
   picks a half of the rows to sum, the inner one the tile within it. At the first tile of a half (inner coordinate 0) the
   body zeroes its 1×1 accumulator before adding the tile's sum of logarithms; at the last (inner coordinate 1) it adds and
   then writes the accumulator, broadcast, into the 8×128 output block of that half. So over the four points in order the
   two conditions alternate: first, last, first, last. The output block is stored, and written back, at the last tile only. -/
import proofs.«152096_j45028437131761_2_alg».proof.Proof.Gen.KernelIdeal.Launch
import proofs.«152096_j45028437131761_2_alg».proof.Proof.Gen.KernelIdeal.Skeleton
import proofs.«152096_j45028437131761_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input tile at a point -/

/-- Window `w`'s block at point `t`, read off its array as the region finds it. -/
def sumBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its tile at every point, for any proof data over `V` whose body
    leaves the tile in place. -/
theorem sumBefore0_of {c : Dev nD} (dat : Dat τ (Elt F) Unit ℕ (UR sig nD τ) ℕ cfg0 c) (hA : dat.A 0 = V c (Pipeline.arrRef spec0 0))
    (hafter : ∀ t, dat.after 0 t = sumBlk V c 0 t) (t : Fin cfg0.N) (d) : dat.before 0 t d = sumBlk V c 0 t :=
  (dat.before_in_eq_fetched 0 rfl (fun _ => rfl) (fun _ _ _ => rfl) (fun t => by rw [hafter]; unfold Dat.blockOf sumBlk; rw [hA]; try rfl) t d).trans
    (by unfold Dat.fetched Dat.blockOf sumBlk; rw [hA]; try rfl)

/-! ## The two conditions, over the grid -/

/-- The body's first condition: the inner coordinate is 0. -/
abbrev atFirst (i : grid0.Coords) : Prop := (Scalar.cmpi .ne (Scalar.extui (Scalar.cmpi .eq (BitVec.ofNat 32 (i 1).val) 0#32)) 0#32) = 1#1
/-- It holds at the even points. -/
theorem atFirst_iff : ∀ t : Fin cfg0.N, atFirst (grid0.coords t) ↔ t.val % 2 = 0 :=
  (by decide +kernel : ∀ t : Fin grid0.N, atFirst (grid0.coords t) ↔ t.val % 2 = 0)

/-- The body's second condition: the inner coordinate is 1. -/
abbrev atLast (i : grid0.Coords) : Prop := k0_cond2 i = 1#1
/-- It holds at the odd points. -/
theorem atLast_iff : ∀ t : Fin cfg0.N, atLast (grid0.coords t) ↔ t.val % 2 = 1 :=
  (by decide +kernel : ∀ t : Fin grid0.N, atLast (grid0.coords t) ↔ t.val % 2 = 1)

/-! ## Where the output window is idle -/

theorem inLive : ∀ t : Fin cfg0.N, cfg0.idle 0 (grid0.coords t) = false := by decide +kernel
/-- At a first tile the body stores nothing into the output block, -/
theorem outIdle : ∀ t : Fin cfg0.N, ¬atLast (grid0.coords t) → cfg0.idle 1 (grid0.coords t) = true := by decide +kernel
/-- and the pipeline does not write it back there. -/
theorem outNoFlush : ∀ t : Fin cfg0.N, ¬atLast (grid0.coords t) → (cfg0.win 1).flush t = false := by decide +kernel
/-- At a last tile the block is stored. -/
theorem outLive : ∀ t : Fin cfg0.N, atLast (grid0.coords t) → cfg0.idle 1 (grid0.coords t) = false := by decide +kernel

/-! ## The memrefs the body is called on -/

/-- A staging buffer of the output window, through which its contents are stated. -/
abbrev outView : View sig .tc .vmem S8x128 .f32 := (Memref.whole cc0_stg1_0 : Memref sig .tc .vmem S8x128 .f32).view
abbrev sumM0 (t : Fin cfg0.N) : Memref sig .tc .vmem S1024x2048 .f32 := win0_0.stage (cfg0.slots t 0)
abbrev sumH0 (t : Fin cfg0.N) : (sumM0 t).IsWhole := hstage0_0 ((cfg0.slots t 0).cast nbuf0_0)
abbrev sumM1 (t : Fin cfg0.N) : Memref sig .tc .vmem S8x128 .f32 := win0_1.stage (cfg0.slots t 1)
abbrev sumH1 (t : Fin cfg0.N) : (sumM1 t).IsWhole := hstage0_1 ((cfg0.slots t 1).cast nbuf0_1)
/-- The 1×1 accumulator: a scoped buffer of the kernel's own, carried from point to point. -/
abbrev accM : Memref sig .tc .vmem S1x1 .f32 := Memref.whole cc0_scratch0
abbrev accView : View sig .tc .vmem S1x1 .f32 := accM.view

/-- The scoped buffers of the core other than this region's staging buffers and the accumulator (the other region's
    staging buffers), each whole at some contents: they ride through the region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the launch hands the region beside the windows: the accumulator at some contents, the other scoped buffers,
    the generator register at some state. -/
theorem sumPhiA (c : Dev nD) :
    (Pipeline.ΦA spec0 c : sProp 𝕄)
      = iprop(iprop((∃ d, owns (c : Thread nD τ) accM fullShare d) ∗ otherScoped c) ∗ (∃ r, prngReg c r)) := by
  unfold Pipeline.ΦA otherScoped; rw [scopedRest0_eq]; simp only [accM, owns_whole]; try rfl

/-! ## What the body leaves, through the payloads

The body's three stores are whole-buffer stores, so each buffer ends at the payload of its last store. -/

/-- The zero offsets of a whole-buffer rectangle, as a constant function. -/
theorem zeroOff : (![0, 0] : Fin 2 → Nat) = fun _ => 0 := by funext a; fin_cases a <;> rfl

abbrev rTile : Rect S1024x2048 := Rect.unit (s := S1024x2048) ![0, 0] S1024x2048.size inb_S1024x2048_S1024x2048_0_0
abbrev rAcc : Rect S1x1 := Rect.unit (s := S1x1) ![0, 0] S1x1.size inb_S1x1_S1x1_0_0
abbrev rOut : Rect S8x128 := Rect.unit (s := S8x128) ![0, 0] S8x128.size inb_S8x128_S8x128_0_0

/-- The accumulator after a first tile `x0`: zero, plus the tile's sum of logarithms. -/
def accFirst (x0 : Vec F S1024x2048 .f32) : Vec F S1x1 .f32 := k0_pay2 x0 (k0_pay1 (F := F))
/-- The accumulator after a later tile `x0`, carried in at `s0`: `s0` plus the tile's sum of logarithms. -/
def accNext (x0 : Vec F S1024x2048 .f32) (s0 : Vec F S1x1 .f32) : Vec F S1x1 .f32 := k0_pay2 x0 s0
/-- The output block after a last tile: the accumulator's new value in every entry. -/
def outLast (x0 : Vec F S1024x2048 .f32) (s0 : Vec F S1x1 .f32) : Vec F S8x128 .f32 := k0_pay3 (k0_pay2 x0 s0)

end Cert.KernelIdeal.Frame

end
-- ==== Proof.KernelIdeal.SumFirst.lean ====
/- The summing kernel's body at a FIRST tile (inner coordinate 0): the accumulator is zeroed, then the tile's sum of
   logarithms is added to it; the output block is left alone. -/
import proofs.«152096_j45028437131761_2_alg».proof.Proof.KernelIdeal.SumShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a first tile, on whole memrefs — the input's at `x0`, the output block's at any `y1`, the accumulator's at
    anything — the body runs to the continuation holding the input and the output block as they were and the accumulator
    at `accFirst x0`: its second store, of the sum added to what its first store (the zero) left, is read back whole. -/
theorem sumFirst (c : Dev nD) (i : grid0.Coords) (a2 : Memref sig .tc .vmem S1024x2048 .f32) (h2 : a2.IsWhole)
    (a3 : Memref sig .tc .vmem S8x128 .f32) (h3 : a3.IsWhole) (a4 : Memref sig .tc .vmem S1x1 .f32) (h4 : a4.IsWhole)
    (hf : atFirst i) (hl : ¬atLast i) (x0 : Vec F S1024x2048 .f32) (y1 : Vec F S8x128 .f32) (E : Set ℕ) (K : PUnit → sProp 𝕄) :
    iprop(owns (c : Thread nD τ) a2 fullShare x0 ∗ owns (c : Thread nD τ) a3 fullShare y1 ∗ (∃ d, owns (c : Thread nD τ) a4 fullShare d)
        ∗ (iprop(owns (c : Thread nD τ) a2 fullShare x0 ∗ owns (c : Thread nD τ) a3 fullShare y1 ∗ owns (c : Thread nD τ) a4 fullShare (accFirst x0)) -∗ K ⟨⟩))
      ⊢ wp frame (wpE (defs₀ (F := F)) Variants.none c none) E (cc0__logdet_kernel i a2 h2 a3 h3 a4 h4) K := by
  simp only [cc0__logdet_kernel_eq_skeleton]; unfold cc0__logdet_kernel_skel
  unfold owns
  iintro ⟨⟨%f0, %hf0, H0⟩, ⟨%f1, %hf1, H1⟩, ⟨%ds, %fs, -, HS⟩, Hk⟩
  obtain rfl := h2.eq_unread hf0
  sl_exec (disch := first | exact hf | exact hl)
  sl_step
  iapply Hk
  isplitl [H0]
  · iexists _; isplitr; · ipureintro; exact h2.read_unread _
    iexact H0
  isplitl [H1]
  · iexists f1; isplitr; · ipureintro; exact hf1
    iexact H1
  iexists _; isplitr
  swap; · iexact HS
  ipureintro
  rw [View.read_writes_eq_canon _ _ _ (fun y => ⟨_, List.mem_cons_self, View.mem_set_unit_zero zeroOff inb_S1x1_S1x1_0_0 y⟩),
    View.canon_cons_unit_zero zeroOff]
  sl_unfold_run_names
  rw [View.readCov_unit_zero _ zeroOff, View.readAt_eq_ld, h2.read_unread, View.ld_unit_zero zeroOff]
  rfl

end Cert.KernelIdeal.Frame

end
-- ==== Proof.KernelIdeal.SumLast.lean ====
/- The summing kernel's body at a LAST tile (inner coordinate 1): the tile's sum of logarithms is added to the
   accumulator carried from the tile before, and the new value is broadcast into the output block. -/
import proofs.«152096_j45028437131761_2_alg».proof.Proof.KernelIdeal.SumShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a last tile, on whole memrefs — the input's at `x0`, the output block's at anything, the accumulator's at the
    carried `s0` — the body runs to the continuation holding the input as it was, the accumulator at `accNext x0 s0`
    and the output block at `outLast x0 s0`: each is one whole-buffer store read back. -/
theorem sumLast (c : Dev nD) (i : grid0.Coords) (a2 : Memref sig .tc .vmem S1024x2048 .f32) (h2 : a2.IsWhole)
    (a3 : Memref sig .tc .vmem S8x128 .f32) (h3 : a3.IsWhole) (a4 : Memref sig .tc .vmem S1x1 .f32) (h4 : a4.IsWhole)
    (hf : ¬atFirst i) (hl : atLast i) (x0 : Vec F S1024x2048 .f32) (s0 : Vec F S1x1 .f32) (E : Set ℕ) (K : PUnit → sProp 𝕄) :
    iprop(owns (c : Thread nD τ) a2 fullShare x0 ∗ (∃ d, owns (c : Thread nD τ) a3 fullShare d) ∗ owns (c : Thread nD τ) a4 fullShare s0
        ∗ (iprop(owns (c : Thread nD τ) a2 fullShare x0 ∗ owns (c : Thread nD τ) a3 fullShare (outLast x0 s0) ∗ owns (c : Thread nD τ) a4 fullShare (accNext x0 s0)) -∗ K ⟨⟩))
      ⊢ wp frame (wpE (defs₀ (F := F)) Variants.none c none) E (cc0__logdet_kernel i a2 h2 a3 h3 a4 h4) K := by
  simp only [cc0__logdet_kernel_eq_skeleton]; unfold cc0__logdet_kernel_skel
  unfold owns
  iintro ⟨⟨%f0, %hf0, H0⟩, ⟨%d1, %f1, -, H1⟩, ⟨%fs, %hfs, HS⟩, Hk⟩
  obtain rfl := h2.eq_unread hf0; obtain rfl := h4.eq_unread hfs
  sl_exec (disch := first | exact hf | exact hl)
  sl_step
  iapply Hk
  isplitl [H0]
  · iexists _; isplitr; · ipureintro; exact h2.read_unread _
    iexact H0
  isplitl [H1]
  · iexists _; isplitr
    swap; · iexact H1
    ipureintro
    rw [View.read_writes_eq_canon _ _ _ (fun y => ⟨_, List.mem_cons_self, View.mem_set_unit_zero zeroOff inb_S8x128_S8x128_0_0 y⟩),
      View.canon_cons_unit_zero zeroOff]
    sl_unfold_run_names
    rw [View.readCov_unit_zero _ zeroOff]
    simp only [View.readAt_eq_ld, h2.read_unread, h4.read_unread, View.ld_unit_zero (S := S1024x2048) zeroOff, View.ld_unit_zero (S := S1x1) zeroOff]
    rfl
  iexists _; isplitr
  swap; · iexact HS
  ipureintro
  sl_unfold_run_names
  rw [View.read_writes_eq_canon _ _ _ (fun y => ⟨_, List.mem_cons_self, View.mem_set_unit_zero zeroOff inb_S1x1_S1x1_0_0 y⟩),
    View.canon_cons_unit_zero zeroOff]
  simp only [View.readAt_eq_ld, h2.read_unread, h4.read_unread, View.ld_unit_zero (S := S1024x2048) zeroOff, View.ld_unit_zero (S := S1x1) zeroOff]
  rfl

end Cert.KernelIdeal.Frame

end
-- ==== Proof.KernelIdeal.SumRegion.lean ====
/- The summing region as a whole: what the output block and the accumulator hold after each of the four grid
   points (by recursion on the point: a first tile starts the accumulator afresh, a last tile adds to what the tile
   before left), the invariant that carries the accumulator from point to point, the proof data, and the body
   obligation, by cases on the point's parity. Stated at any entry contents `V` and any float instance. -/
import proofs.«152096_j45028437131761_2_alg».proof.Proof.KernelIdeal.SumFirst
import proofs.«152096_j45028437131761_2_alg».proof.Proof.KernelIdeal.SumLast

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the buffers hold after each point -/

/-- The output block's staging buffer and the accumulator after the body at position `n`. At an even position (a first
    tile) the accumulator is `accFirst` of the tile and the output block is not stored (its component is a placeholder
    nothing reads: the window is idle there and not written back); at an odd position (a last tile) both come from the
    tile and the accumulator the position before left. -/
def sumAt (c : Dev nD) : (n : ℕ) → n < cfg0.N → Vec F S8x128 .f32 × Vec F S1x1 .f32
  | 0, hn => (k0_pay3 (accFirst (sumBlk V c 0 ⟨0, hn⟩)), accFirst (sumBlk V c 0 ⟨0, hn⟩))
  | n + 1, hn =>
    if (n + 1) % 2 = 1 then
      (outLast (sumBlk V c 0 ⟨n + 1, hn⟩) (sumAt c n (Nat.lt_of_succ_lt hn)).2,
        accNext (sumBlk V c 0 ⟨n + 1, hn⟩) (sumAt c n (Nat.lt_of_succ_lt hn)).2)
    else
      (k0_pay3 (accFirst (sumBlk V c 0 ⟨n + 1, hn⟩)), accFirst (sumBlk V c 0 ⟨n + 1, hn⟩))

theorem sumAt_first (c : Dev nD) (t : Fin cfg0.N) (h : t.val % 2 = 0) :
    sumAt V c t.val t.isLt = (k0_pay3 (accFirst (sumBlk V c 0 t)), accFirst (sumBlk V c 0 t)) := by
  obtain ⟨n, hn⟩ := t
  cases n with
  | zero => rfl
  | succ n => exact if_neg (by simp only at h; omega)

theorem sumAt_last (c : Dev nD) (t : Fin cfg0.N) (h : t.val % 2 = 1) :
    sumAt V c t.val t.isLt
      = (outLast (sumBlk V c 0 t) (sumAt V c (t.val - 1) (Nat.lt_of_le_of_lt (Nat.sub_le _ _) t.isLt)).2,
          accNext (sumBlk V c 0 t) (sumAt V c (t.val - 1) (Nat.lt_of_le_of_lt (Nat.sub_le _ _) t.isLt)).2) := by
  obtain ⟨n, hn⟩ := t
  cases n with
  | zero => exact absurd h (show ¬ (0 : ℕ) % 2 = 1 by decide)
  | succ n => exact if_pos (by simp only at h; omega)

/-! ## The invariant -/

/-- Before position `n`: at the start what the launch hands the region (the accumulator at anything); afterwards the
    accumulator at what the position before left, the other scoped buffers and the generator register riding along. -/
def sumPhi (c : Dev nD) : (n : ℕ) → n ≤ cfg0.N → sProp 𝕄
  | 0, _ => Pipeline.ΦA spec0 c
  | n + 1, hn => iprop(iprop(owns (c : Thread nD τ) accM fullShare ((sumAt V c n hn).2) ∗ otherScoped c) ∗ (∃ r, prngReg c r))

theorem sumPhi_zero (c : Dev nD) (n : ℕ) (h : n ≤ cfg0.N) (hz : n = 0) : sumPhi V c n h = Pipeline.ΦA spec0 c := by
  subst hz; rfl

theorem sumPhi_succ (c : Dev nD) (n : ℕ) (hn : n < cfg0.N) :
    sumPhi V c (n + 1) hn = iprop(iprop(owns (c : Thread nD τ) accM fullShare ((sumAt V c n hn).2) ∗ otherScoped c) ∗ (∃ r, prngReg c r)) := rfl

theorem sumPhi_pos (c : Dev nD) (n : ℕ) (h : n ≤ cfg0.N) (hz : n ≠ 0) :
    sumPhi V c n h = iprop(iprop(owns (c : Thread nD τ) accM fullShare ((sumAt V c (n - 1) (by omega)).2) ∗ otherScoped c) ∗ (∃ r, prngReg c r)) := by
  cases n with
  | zero => exact absurd rfl hz
  | succ n => rfl

/-! ## The proof data -/

/-- The region's proof data on core `c`: the arrays as the region finds them; after the body the input's buffer at its
    tile and the output block's at `sumAt`'s first component; the invariant `sumPhi`; nothing owed; full shares. -/
def sumDat (c : Dev nD) : Dat τ (Elt F) Unit ℕ (UR sig nD τ) ℕ cfg0 c where
  A w := V c (Pipeline.arrRef spec0 w)
  after w t := match w with
    | ⟨0, _⟩ => sumBlk V c 0 t
    | ⟨1, _⟩ => (sumAt V c t.val t.isLt).1
  Φ t := sumPhi V c t.val (Nat.le_of_lt_succ t.isLt)
  q _ := fullShare
  owed _ := 0

theorem sumA (c : Dev nD) (w : Fin cfg0.W) : (sumDat V c).A w = V c (Pipeline.arrRef spec0 w) := by
  dsimp only [sumDat]

theorem sumPhi_castSucc (c : Dev nD) (t : Fin cfg0.N) :
    (sumDat V c).Φ t.castSucc = sumPhi V c t.val (Nat.le_of_lt t.isLt) := by
  dsimp only [sumDat]; simp only [Fin.coe_castSucc]

theorem sumAfter0 (c : Dev nD) (t : Fin cfg0.N) : (sumDat V c).after 0 t = sumBlk V c 0 t := by dsimp only [sumDat]
theorem sumAfter1 (c : Dev nD) (t : Fin cfg0.N) : (sumDat V c).after 1 t = (sumAt V c t.val t.isLt).1 := by dsimp only [sumDat]

theorem sumBefore0 (c : Dev nD) (t : Fin cfg0.N) (d) : (sumDat V c).before 0 t d = sumBlk V c 0 t :=
  sumBefore0_of V (sumDat V c) (sumA V c 0) (sumAfter0 V c) t d

/-! ## The body obligation -/

def sumPre (c : Dev nD) (t : Fin cfg0.N) : sProp 𝕄 :=
  iprop((sumDat V c).Φ t.castSucc ∗ (sumDat V c).owesAt () t.castSucc
    ∗ (∃ d, owns (c : Thread nD τ) (sumM0 t) fullShare ((sumDat V c).before 0 t d))
    ∗ (∃ d, owns (c : Thread nD τ) (sumM1 t) fullShare ((sumDat V c).before 1 t d)))

def sumPost (c : Dev nD) (t : Fin cfg0.N) : sProp 𝕄 :=
  iprop((sumDat V c).Φ t.succ ∗ (sumDat V c).owesAt () t.succ
    ∗ (sumDat V c).leavesExact 0 t
    ∗ (sumDat V c).leavesExact 1 t)

set_option maxHeartbeats 2000000 in
/-- The body at any point. At an even point the invariant hands the accumulator over at anything (the launch's, or what
    the half before left: either way it is overwritten) and takes it back at `accFirst` of the tile; the output block's
    buffer goes back as found. At an odd point the invariant hands the accumulator over at what the point before left and
    takes it back with the tile's sum added; the output block's buffer comes back at the broadcast. -/
theorem sumBody (c : Dev nD) (t : Fin cfg0.N) :
    sumPre V c t ⊢ wp frame (wpE (defs₀ (F := F)) Variants.none c none) Set.univ (bodyAt0 t) (fun _ => sumPost V c t) := by
  unfold sumPre sumPost bodyAt0
  simp only [sumBefore0]
  rw [show (sumDat V c).owesAt () t.succ = (sumDat V c).owesAt () t.castSucc from rfl]
  rw [show (sumDat V c).Φ t.succ = sumPhi V c (t.val + 1) t.isLt from rfl, sumPhi_succ]
  have hN : t.val < 4 := lt_of_lt_of_eq t.isLt (show cfg0.N = 4 from N_0)
  rw [show (sumDat V c).leavesExact 0 t = owns (c : Thread nD τ) (sumM0 t) fullShare ((sumDat V c).after 0 t) from by
    unfold Dat.leavesExact; rw [inLive t], sumAfter0]
  by_cases hp : t.val % 2 = 0
  · have hf : atFirst (grid0.coords t) := (atFirst_iff t).mpr hp
    have hl : ¬atLast (grid0.coords t) := fun h => by have := (atLast_iff t).mp h; omega
    rw [Dat.leavesExact_idle (sumDat V c) 1 t (outIdle t hl) (outNoFlush t hl)]
    rw [sumAt_first V c t hp]
    by_cases hz : t.val = 0
    · rw [sumPhi_castSucc V c t, sumPhi_zero V c _ _ hz, sumPhiA]
      iintro ⟨⟨⟨HS, Hoth⟩, Hg⟩, Ho, ⟨%d0, H0⟩, ⟨%d1, H1⟩⟩
      iapply (sumFirst c (grid0.coords t) _ _ _ _ _ _ hf hl (sumBlk V c 0 t) _ Set.univ _)
      isplitl [H0]; · iexact H0
      isplitl [H1]; · iexact H1
      isplitl [HS]; · iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
    · rw [sumPhi_castSucc V c t, sumPhi_pos V c _ _ hz]
      iintro ⟨⟨⟨HS, Hoth⟩, Hg⟩, Ho, ⟨%d0, H0⟩, ⟨%d1, H1⟩⟩
      iapply (sumFirst c (grid0.coords t) _ _ _ _ _ _ hf hl (sumBlk V c 0 t) _ Set.univ _)
      isplitl [H0]; · iexact H0
      isplitl [H1]; · iexact H1
      isplitl [HS]; · iexists _; iexact HS
      iintro ⟨H0, H1, HS⟩
      isplitl [HS Hoth Hg]
      · isplitl [HS Hoth]
        · isplitl [HS]; · iexact HS
          iexact Hoth
        iexact Hg
      isplitl [Ho]; · iexact Ho
      isplitl [H0]; · iexact H0
      iexists _; iexact H1
  · have hp1 : t.val % 2 = 1 := by omega
    have hf : ¬atFirst (grid0.coords t) := fun h => hp ((atFirst_iff t).mp h)
    have hl : atLast (grid0.coords t) := (atLast_iff t).mpr hp1
    rw [show (sumDat V c).leavesExact 1 t = owns (c : Thread nD τ) (sumM1 t) fullShare ((sumDat V c).after 1 t) from by
      unfold Dat.leavesExact; rw [outLive t hl], sumAfter1]
    rw [sumAt_last V c t hp1]
    have hz : t.val ≠ 0 := by omega
    rw [sumPhi_castSucc V c t, sumPhi_pos V c _ _ hz]
    iintro ⟨⟨⟨HS, Hoth⟩, Hg⟩, Ho, ⟨%d0, H0⟩, ⟨%d1, H1⟩⟩
    iapply (sumLast c (grid0.coords t) _ _ _ _ _ _ hf hl (sumBlk V c 0 t) _ Set.univ _)
    isplitl [H0]; · iexact H0
    isplitl [H1]; · iexists _; iexact H1
    isplitl [HS]; · iexact HS
    iintro ⟨H0, H1, HS⟩
    isplitl [HS Hoth Hg]
    · isplitl [HS Hoth]
      · isplitl [HS]; · iexact HS
        iexact Hoth
      iexact Hg
    isplitl [Ho]; · iexact Ho
    isplitl [H0]; · iexact H0
    iexact H1

theorem sumObligation (c : Dev nD) : BodyObligation (sumDat (F := F) V c) (defs₀ (F := F)) Variants.none () Set.univ := fun t => by
  rw [bigSep_W0, bigSep_W0]
  exact sumBody V c t

/-- What the launch hands the region is the invariant before the first point. -/
theorem sumIn (c : Dev nD) : Pipeline.ΦA spec0 c ⊢ (sumDat V c).Φ 0 := by
  rw [show (sumDat V c).Φ 0 = sumPhi V c 0 (Nat.zero_le _) from rfl, sumPhi_zero V c 0 _ rfl]
  try exact Idealize.SL.BI.Entails.refl _

/-- After the last point the invariant gives that back, the accumulator's contents forgotten. -/
theorem sumOut (c : Dev nD) : (sumDat V c).Φ (Fin.last cfg0.N) ⊢ Pipeline.ΦA spec0 c := by
  rw [show (sumDat V c).Φ (Fin.last cfg0.N) = sumPhi V c (Fin.last cfg0.N).val (Nat.le_of_lt_succ (Fin.last cfg0.N).isLt) from rfl,
    sumPhi_pos V c _ _ (by rw [Fin.val_last]; have : cfg0.N = 4 := N_0; omega), sumPhiA]
  iintro ⟨⟨HS, Hoth⟩, Hg⟩
  isplitl [HS Hoth]
  · isplitl [HS]; · iexists _; iexact HS
    iexact Hoth
  iexact Hg

end Cert.KernelIdeal.Frame

end
-- ==== Proof.KernelIdeal.LossRegion.lean ====
/- The elementwise region (the second kernel call): per grid point i it reads block i of the mean half of
   `output` (rows 512 i ..), block i + 8 of the same array (the variance half), block i of `target` and the 1×1 sum of
   logs, and stores the whole 512×2048 output block. Two of its windows read ONE array, so each holds it at half a
   share. Stated at any contents `V` of the buffers when the region is entered, and at any float instance. -/
import proofs.«152096_j45028437131761_2_alg».proof.Proof.Gen.KernelIdeal.Launch
import proofs.«152096_j45028437131761_2_alg».proof.Proof.Gen.KernelIdeal.Skeleton
import proofs.«152096_j45028437131761_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows read -/

/-- Window `w`'s block at point `t`, read off its array as the region finds it. -/
def lossBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data over `V` whose body leaves the block in place: one statement per
    input window, since a window's block type is read off its literal position. -/
theorem lossBefore0_of {c : Dev nD} (dat : Dat τ (Elt F) Unit ℕ (UR sig nD τ) ℕ cfg1 c) (hA : dat.A 0 = V c (Pipeline.arrRef spec1 0))
    (hafter : ∀ t, dat.after 0 t = lossBlk V c 0 t) (t : Fin cfg1.N) (d) : dat.before 0 t d = lossBlk V c 0 t :=
  (dat.before_in_eq_fetched 0 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore1_of {c : Dev nD} (dat : Dat τ (Elt F) Unit ℕ (UR sig nD τ) ℕ cfg1 c) (hA : dat.A 1 = V c (Pipeline.arrRef spec1 1))
    (hafter : ∀ t, dat.after 1 t = lossBlk V c 1 t) (t : Fin cfg1.N) (d) : dat.before 1 t d = lossBlk V c 1 t :=
  (dat.before_in_eq_fetched 1 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore2_of {c : Dev nD} (dat : Dat τ (Elt F) Unit ℕ (UR sig nD τ) ℕ cfg1 c) (hA : dat.A 2 = V c (Pipeline.arrRef spec1 2))
    (hafter : ∀ t, dat.after 2 t = lossBlk V c 2 t) (t : Fin cfg1.N) (d) : dat.before 2 t d = lossBlk V c 2 t :=
  (dat.before_in_eq_fetched 2 rfl (fun _ => rfl) (fun _ _ _ => rfl) (fun t => by rw [hafter]; unfold Dat.blockOf lossBlk; rw [hA]; try rfl) t d).trans
    (by unfold Dat.fetched Dat.blockOf lossBlk; rw [hA]; try rfl)
theorem lossBefore3_of {c : Dev nD} (dat : Dat τ (Elt F) Unit ℕ (UR sig nD τ) ℕ cfg1 c) (hA : dat.A 3 = V c (Pipeline.arrRef spec1 3))
    (hafter : ∀ t, dat.after 3 t = lossBlk V c 3 t) (t : Fin cfg1.N) (d) : dat.before 3 t d = lossBlk V c 3 t :=
  (dat.before_in_eq_fetched 3 rfl (fun _ => rfl) (fun _ _ _ => rfl) (fun t => by rw [hafter]; unfold Dat.blockOf lossBlk; rw [hA]; try rfl) t d).trans
    (by unfold Dat.fetched Dat.blockOf lossBlk; rw [hA]; try rfl)

/-! ## What the body leaves in the output block -/

abbrev rBig : Rect S512x2048 := Rect.unit (s := S512x2048) ![0, 0] S512x2048.size inb_S512x2048_S512x2048_0_0
abbrev rOne : Rect S1x1 := Rect.unit (s := S1x1) ![0, 0] S1x1.size inb_S1x1_S1x1_0_0

/-- The output block after the body: its one whole-block store of the payload of the four blocks read. -/
def lossOut (x0 x1 x2 : Vec F S512x2048 .f32) (x3 : Vec F S1x1 .f32) : Vec F S512x2048 .f32 :=
  View.canon [⟨rBig, k1_pay1 (View.ld x0 rBig) (View.ld x2 rBig) (View.ld x1 rBig) (View.ld x3 rOne)⟩]

/-- The one store covers the block. -/
theorem lossCover (p0 : Vec F S512x2048 .f32) (y : S512x2048.Idx) :
    ∃ pc ∈ ([⟨rBig, p0⟩] : List (View.Piece (Elt F) S512x2048 .f32)), y ∈ pc.1.set :=
  View.cover_of_tiled [⟨rBig, p0⟩] S512x2048.size (by rfl) y

/-! ## The body's triple -/

set_option maxHeartbeats 1000000 in
/-- On whole staging memrefs, the four inputs at contents `x0 … x3` and the output at anything, the body runs to the
    continuation holding the inputs as they were and the output block at `lossOut` of them. -/
theorem lossKernel (c : Dev nD) (E : Set ℕ) (i : grid1.Coords)
    (a1 : Memref sig .tc .vmem S512x2048 .f32) (h1 : a1.IsWhole) (a2 : Memref sig .tc .vmem S512x2048 .f32) (h2 : a2.IsWhole)
    (a3 : Memref sig .tc .vmem S512x2048 .f32) (h3 : a3.IsWhole) (a4 : Memref sig .tc .vmem S1x1 .f32) (h4 : a4.IsWhole)
    (a5 : Memref sig .tc .vmem S512x2048 .f32) (h5 : a5.IsWhole)
    (x0 x1 x2 : Vec F S512x2048 .f32) (x3 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (lossOut x0 x1 x2 x3)) -∗ K ⟨⟩))
      ⊢ wp frame (wpE (defs₀ (F := F)) Variants.none c none) E (cc1__main_kernel i a1 h1 a2 h2 a3 h3 a4 h4 a5 h5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (lossCover _)

/-! ## The proof data -/

/-- The region's proof data on core `c`: the arrays as the region finds them; after the body each input's buffer at its
    block, the output's at `lossOut` of the four blocks; the invariant the scoped rest and the generator register,
    untouched; nothing owed; the two windows on `output` each at half a share, the others at the full one. -/
def lossDat (c : Dev nD) : Dat τ (Elt F) Unit ℕ (UR sig nD τ) ℕ cfg1 c where
  A w := V c (Pipeline.arrRef spec1 w)
  after w t := match w with
    | ⟨0, _⟩ => lossBlk V c 0 t
    | ⟨1, _⟩ => lossBlk V c 1 t
    | ⟨2, _⟩ => lossBlk V c 2 t
    | ⟨3, _⟩ => lossBlk V c 3 t
    | ⟨4, _⟩ => lossOut (lossBlk V c 0 t) (lossBlk V c 1 t) (lossBlk V c 2 t) (lossBlk V c 3 t)
  Φ _ := Pipeline.ΦA spec1 c
  q w := match w with
    | ⟨0, _⟩ => fullShare.left
    | ⟨1, _⟩ => fullShare.right
    | _ => fullShare
  owed _ := 0

theorem lossA (c : Dev nD) (w : Fin cfg1.W) : (lossDat V c).A w = V c (Pipeline.arrRef spec1 w) := by
  dsimp only [lossDat]

theorem lossAfter0 (c : Dev nD) (t : Fin cfg1.N) : (lossDat V c).after 0 t = lossBlk V c 0 t := by dsimp only [lossDat]
theorem lossAfter1 (c : Dev nD) (t : Fin cfg1.N) : (lossDat V c).after 1 t = lossBlk V c 1 t := by dsimp only [lossDat]
theorem lossAfter2 (c : Dev nD) (t : Fin cfg1.N) : (lossDat V c).after 2 t = lossBlk V c 2 t := by dsimp only [lossDat]
theorem lossAfter3 (c : Dev nD) (t : Fin cfg1.N) : (lossDat V c).after 3 t = lossBlk V c 3 t := by dsimp only [lossDat]
theorem lossAfter4 (c : Dev nD) (t : Fin cfg1.N) :
    (lossDat V c).after 4 t = lossOut (lossBlk V c 0 t) (lossBlk V c 1 t) (lossBlk V c 2 t) (lossBlk V c 3 t) := by dsimp only [lossDat]

theorem lossBefore0 (c : Dev nD) (t : Fin cfg1.N) (d) : (lossDat V c).before 0 t d = lossBlk V c 0 t :=
  lossBefore0_of V (lossDat V c) (lossA V c 0) (lossAfter0 V c) t d
theorem lossBefore1 (c : Dev nD) (t : Fin cfg1.N) (d) : (lossDat V c).before 1 t d = lossBlk V c 1 t :=
  lossBefore1_of V (lossDat V c) (lossA V c 1) (lossAfter1 V c) t d
theorem lossBefore2 (c : Dev nD) (t : Fin cfg1.N) (d) : (lossDat V c).before 2 t d = lossBlk V c 2 t :=
  lossBefore2_of V (lossDat V c) (lossA V c 2) (lossAfter2 V c) t d
theorem lossBefore3 (c : Dev nD) (t : Fin cfg1.N) (d) : (lossDat V c).before 3 t d = lossBlk V c 3 t :=
  lossBefore3_of V (lossDat V c) (lossA V c 3) (lossAfter3 V c) t d

/-! ## The body obligation -/

def lossPre (c : Dev nD) (t : Fin cfg1.N) : sProp 𝕄 :=
  iprop((lossDat V c).Φ t.castSucc ∗ (lossDat V c).owesAt () t.castSucc
    ∗ (∃ d, owns (c : Thread nD τ) (st1_0 t) fullShare ((lossDat V c).before 0 t d))
    ∗ (∃ d, owns (c : Thread nD τ) (st1_1 t) fullShare ((lossDat V c).before 1 t d))
    ∗ (∃ d, owns (c : Thread nD τ) (st1_2 t) fullShare ((lossDat V c).before 2 t d))
    ∗ (∃ d, owns (c : Thread nD τ) (st1_3 t) fullShare ((lossDat V c).before 3 t d))
    ∗ (∃ d, owns (c : Thread nD τ) (st1_4 t) fullShare ((lossDat V c).before 4 t d)))

def lossPost (c : Dev nD) (t : Fin cfg1.N) : sProp 𝕄 :=
  iprop((lossDat V c).Φ t.succ ∗ (lossDat V c).owesAt () t.succ
    ∗ owns (c : Thread nD τ) (st1_0 t) fullShare ((lossDat V c).after 0 t)
    ∗ owns (c : Thread nD τ) (st1_1 t) fullShare ((lossDat V c).after 1 t)
    ∗ owns (c : Thread nD τ) (st1_2 t) fullShare ((lossDat V c).after 2 t)
    ∗ owns (c : Thread nD τ) (st1_3 t) fullShare ((lossDat V c).after 3 t)
    ∗ owns (c : Thread nD τ) (st1_4 t) fullShare ((lossDat V c).after 4 t))

/-- The body at any point: the inputs' buffers hold their blocks, so the triple applies; the invariant and the
    core's dues pass through unread. -/
theorem lossBody (c : Dev nD) (t : Fin cfg1.N) :
    lossPre V c t ⊢ wp frame (wpE (defs₀ (F := F)) Variants.none c none) Set.univ (bodyAt1 t) (fun _ => lossPost V c t) := by
  unfold lossPre lossPost bodyAt1
  simp only [lossBefore0, lossBefore1, lossBefore2, lossBefore3]
  rw [show (lossDat V c).Φ t.succ = (lossDat V c).Φ t.castSucc from rfl,
    show (lossDat V c).owesAt () t.succ = (lossDat V c).owesAt () t.castSucc from rfl,
    lossAfter0, lossAfter1, lossAfter2, lossAfter3, lossAfter4]
  iintro ⟨HΦ, Ho, ⟨%d0, H0⟩, ⟨%d1, H1⟩, ⟨%d2, H2⟩, ⟨%d3, H3⟩, ⟨%d4, H4⟩⟩
  iapply (lossKernel c Set.univ _ _ _ _ _ _ _ _ _ _ _ (lossBlk V c 0 t) (lossBlk V c 1 t) (lossBlk V c 2 t) (lossBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem lossObligation (c : Dev nD) : BodyObligation (lossDat (F := F) V c) (defs₀ (F := F)) Variants.none () Set.univ := fun t => by
  rw [bigSep_W1, bigSep_W1]
  exact lossBody V c t

end Cert.KernelIdeal.Frame

end
-- ==== Proof.KernelIdeal.Buffers.lean ====
/- Core `c`'s unscoped buffers followed through @main's three items — the summing region, six host operations on
   its result, the elementwise region. The summing region changes only its output array, the host operations only their
   own results, the elementwise region only the result array; so both argument arrays end as launched, and the result
   array ends at what the elementwise region's write-backs leave. -/
import proofs.«152096_j45028437131761_2_alg».proof.Proof.KernelIdeal.SumRegion
import proofs.«152096_j45028437131761_2_alg».proof.Proof.KernelIdeal.LossRegion

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch; -/
abbrev buf0 : Dev nD → Valuation τ sig (Elt F) := fun c b => m (c, b)
abbrev at0 : (c : Dev nD) → (b : Ref sig .tc) → Buf (Elt F) ((c : Thread nD τ).loc b) := fun c b => buf0 m c b

/-- what the summing region leaves in its output array (the entry contents, the two written-back blocks folded in); -/
def sums (c : Dev nD) : Buf (Elt F) ((c : Thread nD τ).loc main_v0) := (sumDat (at0 m) c).arrAt 1 cfg0.N
/-- the buffers after the summing region: that array changed, nothing else; -/
def buf1 (c : Dev nD) : Valuation τ sig (Elt F) := Function.update (buf0 m c) (Proc.devRef .tc main_v0) (sums m c)
abbrev at1 : (c : Dev nD) → (b : Ref sig .tc) → Buf (Elt F) ((c : Thread nD τ).loc b) := fun c b => buf1 m c b

/-- after the six host operations; -/
abbrev buf2 : Dev nD → Valuation τ sig (Elt F) := fun c => StableHlo.after hostOps1 (buf1 m c)
abbrev at2 : (c : Dev nD) → (b : Ref sig .tc) → Buf (Elt F) ((c : Thread nD τ).loc b) := fun c b => buf2 m c b

/-- what the elementwise region leaves in the result array; -/
def loss (c : Dev nD) : Buf (Elt F) ((c : Thread nD τ).loc main_v7) := (lossDat (at2 m) c).arrAt 4 cfg1.N
/-- and the buffers at the end: the result array changed, nothing else. -/
def buf3 (c : Dev nD) : Valuation τ sig (Elt F) := Function.update (buf2 m c) (Proc.devRef .tc main_v7) (loss m c)
abbrev at3 : (c : Dev nD) → (b : Ref sig .tc) → Buf (Elt F) ((c : Thread nD τ).loc b) := fun c b => buf3 m c b

theorem at1_v0 (c : Dev nD) : at1 m c main_v0 = sums m c := by
  show Function.update (buf0 m c) (Proc.devRef .tc main_v0) (sums m c) (Proc.devRef .tc main_v0) = _
  exact Function.update_self ..
theorem at1_of_ne (c : Dev nD) (b : Ref sig .tc) (h : b ≠ main_v0) : at1 m c b = at0 m c b := by
  show Function.update (buf0 m c) (Proc.devRef .tc main_v0) (sums m c) (Proc.devRef .tc b) = _
  exact Function.update_of_ne (StableHlo.devRef_ne_of_ne h) ..
theorem at3_v7 (c : Dev nD) : at3 m c main_v7 = loss m c := by
  show Function.update (buf2 m c) (Proc.devRef .tc main_v7) (loss m c) (Proc.devRef .tc main_v7) = _
  exact Function.update_self ..
theorem at3_of_ne (c : Dev nD) (b : Ref sig .tc) (h : b ≠ main_v7) : at3 m c b = at2 m c b := by
  show Function.update (buf2 m c) (Proc.devRef .tc main_v7) (loss m c) (Proc.devRef .tc b) = _
  exact Function.update_of_ne (StableHlo.devRef_ne_of_ne h) ..

/-- No host operation writes a buffer outside its own results. -/
theorem hostOps1_writes' : (hostOps1 : List (HloOp τ sig (Elt F))).Forall fun op => op.writes ⊆ (([main_v1, main_v2, main_v3, main_v4, main_v5, main_v6] : List (Ref sig .tc)).map (Proc.devRef (τ := τ) .tc)).toFinset := by
  simp only [List.Forall]
  refine ⟨?_, ?_, ?_, ?_, ?_, ?_⟩ <;>
    (simp only [StableHlo.unary_writes, StableHlo.binary_writes, StableHlo.reshape_writes, Finset.singleton_subset_iff, List.mem_toFinset]
     exact List.mem_map_of_mem (by decide))
theorem at2_of_not_mem (c : Dev nD) (b : Ref sig .tc) (h : b ∉ ([main_v1, main_v2, main_v3, main_v4, main_v5, main_v6] : List (Ref sig .tc))) :
    at2 m c b = at1 m c b :=
  StableHlo.after_of_writes_sub hostOps1 _ hostOps1_writes' h

/-- At the summing region's exit each of its arrays holds what the pipeline leaves, every other buffer what it held. -/
theorem sumExit (c : Dev nD) (w : Fin cfg0.W) : (sumDat (at0 m) c).arrAt w cfg0.N = at1 m c (Pipeline.arrRef spec0 w) :=
  match w with
  | ⟨0, _⟩ => ((sumDat (at0 m) c).arrAt_in 0 rfl _).trans ((sumA (at0 m) c 0).trans (at1_of_ne m c main_arg0 (by decide)).symm)
  | ⟨1, _⟩ => (at1_v0 m c).symm
theorem sumRest (c : Dev nD) : ∀ b, b ∉ Finset.univ.image (Pipeline.arrRef spec0) → at1 m c b = at0 m c b :=
  fun b hb => at1_of_ne m c b fun e => hb (Finset.mem_image.mpr ⟨1, Finset.mem_univ _, e.symm⟩)

/-- At the elementwise region's exit: the four inputs as entered, the result array at what the pipeline leaves. -/
theorem lossExit (c : Dev nD) (w : Fin cfg1.W) : (lossDat (at2 m) c).arrAt w cfg1.N = at3 m c (Pipeline.arrRef spec1 w) :=
  match w with
  | ⟨0, _⟩ => ((lossDat (at2 m) c).arrAt_in 0 rfl _).trans ((lossA (at2 m) c 0).trans (at3_of_ne m c main_arg0 (by decide)).symm)
  | ⟨1, _⟩ => ((lossDat (at2 m) c).arrAt_in 1 rfl _).trans ((lossA (at2 m) c 1).trans (at3_of_ne m c main_arg0 (by decide)).symm)
  | ⟨2, _⟩ => ((lossDat (at2 m) c).arrAt_in 2 rfl _).trans ((lossA (at2 m) c 2).trans (at3_of_ne m c main_arg1 (by decide)).symm)
  | ⟨3, _⟩ => ((lossDat (at2 m) c).arrAt_in 3 rfl _).trans ((lossA (at2 m) c 3).trans (at3_of_ne m c main_v6 (by decide)).symm)
  | ⟨4, _⟩ => (at3_v7 m c).symm

/-! ## The arguments end as launched -/

theorem at3_arg0 (c : Dev nD) : at3 m c main_arg0 = m ((c : Thread nD τ).loc main_arg0) :=
  (at3_of_ne m c main_arg0 (by decide)).trans <| (at2_of_not_mem m c main_arg0 (by decide)).trans <| (at1_of_ne m c main_arg0 (by decide)).trans rfl
theorem at3_arg1 (c : Dev nD) : at3 m c main_arg1 = m ((c : Thread nD τ).loc main_arg1) :=
  (at3_of_ne m c main_arg1 (by decide)).trans <| (at2_of_not_mem m c main_arg1 (by decide)).trans <| (at1_of_ne m c main_arg1 (by decide)).trans rfl

end Cert.KernelIdeal.Frame

end
-- ==== Proof.KernelIdeal.LossShares.lean ====
/- The elementwise region's arrays against the buffers behind them. Its five windows sit on FOUR buffers — the
   mean and the variance windows both read `output` —, so holding the windows' arrays (the two on `output` at half a share
   each, the others whole) is the same as holding the four buffers whole, at any contents on which the two agree. -/
import proofs.«152096_j45028437131761_2_alg».proof.Proof.KernelIdeal.LossRegion

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the region's windows. -/
theorem lossArrRefs : (Finset.univ.image (Pipeline.arrRef spec1) : Finset (Ref sig .tc)) = {main_arg0, main_arg1, main_v6, main_v7} := by decide

/-- The region's arrays, window by window: whole buffers, the two windows on `output` at the two halves of the share. -/
theorem lossArrays (c : Dev nD) (A : (w : Fin cfg1.W) → Buf (Elt F) ((cfg1.win w).arr.view.loc (c.tc : Thread nD τ))) :
    ((lossDat V c).arrays A : sProp 𝕄)
      = iprop((((c.tc : Thread nD τ).loc (Pipeline.arrRef spec1 0)) ↦{fullShare.left} A 0)
          ∗ (((c.tc : Thread nD τ).loc (Pipeline.arrRef spec1 1)) ↦{fullShare.right} A 1)
          ∗ (((c.tc : Thread nD τ).loc (Pipeline.arrRef spec1 2)) ↦{fullShare} A 2)
          ∗ (((c.tc : Thread nD τ).loc (Pipeline.arrRef spec1 3)) ↦{fullShare} A 3)
          ∗ (((c.tc : Thread nD τ).loc (Pipeline.arrRef spec1 4)) ↦{fullShare} A 4)) := by
  unfold Dat.arrays
  -- the first rewrite serves both windows on `output`: they have one array
  rw [bigSep_W1, (arr_whole1 0).set_eq_univ, (arr_whole1 2).set_eq_univ, (arr_whole1 3).set_eq_univ, (arr_whole1 4).set_eq_univ]
  rfl

/-- The four buffers whole at contents `W`, one by one. -/
theorem lossBufs (c : Dev nD) (W : (b : Ref sig .tc) → Buf (Elt F) ((c : Thread nD τ).loc b)) :
    (Pipeline.arrBufs spec1 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v6) ↦{fullShare} W main_v6) ∗ (((c.tc : Thread nD τ).loc main_v7) ↦{fullShare} W main_v7)) := by
  unfold Pipeline.arrBufs
  rw [lossArrRefs, bigSep_insert (by decide), bigSep_insert (by decide), bigSep_insert (by decide), bigSep_singleton]
  rfl

/-- The arrays at contents `A` are the four buffers at any `W` that has those contents: the two halves of `output`
    join into the whole and split back. -/
theorem lossArrays_bufs (c : Dev nD) (A : (w : Fin cfg1.W) → Buf (Elt F) ((cfg1.win w).arr.view.loc (c.tc : Thread nD τ)))
    (W : (b : Ref sig .tc) → Buf (Elt F) ((c : Thread nD τ).loc b)) (hA : ∀ w, A w = W (Pipeline.arrRef spec1 w)) :
    ((lossDat V c).arrays A : sProp 𝕄) ⊣⊢ Pipeline.arrBufs spec1 c W := by
  rw [lossArrays, lossBufs, hA 0, hA 1, hA 2, hA 3, hA 4]
  constructor
  · iintro ⟨Hl, Hr, H1, H6, H7⟩
    isplitl [Hl Hr]
    · iapply (pointsTo_share (PosShare.mem_left_op_right fullShare)).2
      isplitl [Hl]; · iexact Hl
      iexact Hr
    isplitl [H1]; · iexact H1
    isplitl [H6]; · iexact H6
    iexact H7
  · iintro ⟨H0, H1, H6, H7⟩
    ihave H0' := (pointsTo_share (PosShare.mem_left_op_right fullShare)).1 $$ H0
    icases H0' with ⟨Hl, Hr⟩
    isplitl [Hl]; · iexact Hl
    isplitl [Hr]; · iexact Hr
    isplitl [H1]; · iexact H1
    isplitl [H6]; · iexact H6
    iexact H7

end Cert.KernelIdeal.Frame

end
-- ==== Proof.KernelIdeal.Run.lean ====
/- The whole run: @main is the summing region, six host operations on its result, and the elementwise region. Each
   region is packed as a segment between the buffer states that follow the unscoped buffers through the three items, and
   every weakly fair execution of @main ends with every unscoped buffer at the last of these states. The frame claim reads the two argument arrays off it; a value claim
   reads the result array. -/
import proofs.«152096_j45028437131761_2_alg».proof.Proof.KernelIdeal.Buffers
import proofs.«152096_j45028437131761_2_alg».proof.Proof.KernelIdeal.LossShares

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev noTables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) noTables p) c
  | ⟨0, _⟩ => fun c => sumDat (at0 m) c
  | ⟨1, _⟩ => fun c => lossDat (at2 m) c
abbrev noVariants : Variants := Variants.none
abbrev noLevels : GSem nD τ sig → Finset Unit := fun _ => ∅
abbrev lvl0 : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)

theorem hostOps1_fresh' : (hostOps1 : List (HloOp τ sig (Elt F))).Forall fun op => op.fresh = ∅ := by
  simp only [List.Forall]; repeat' constructor

/-- The host operations as a segment from the buffers after the summing region. -/
abbrev hostSeg : Pipeline.HostSeg (Name := ℕ) (U := UR sig nD τ) (pcfgs (F := F)) defs₀ noVariants noLevels lvl0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh') op h) (buf1 m) riding

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues. -/
abbrev lastState (c : Dev nD) : sProp 𝕄 := iprop(StableHlo.held (c : Thread nD τ) (Pipeline.ucRefs τ sig) (buf3 m c) ∗ ∃ r, prngReg c r)

/-! ## The regions as segments -/

set_option backward.isDefEq.respectTransparency.types false in
/-- The summing region between the launch's buffers and `buf1`: its two arrays are split out of the unscoped buffers at
    entry and put back at their final contents at exit; the generator register and the scoped rest go into the
    region's invariant and come back; nothing is owed; the kernel has no semaphore of its own. -/
def sumSeg : Pipeline.RegionSeg (pcfgs (F := F)) noTables (pdats m) () defs₀ noVariants noLevels lvl0 0 where
  win := launch0.win.to₀
  block_pos := launch0.block_pos
  stage_whole := launch0.stage_whole
  K := PEmpty
  osem k := k.elim
  ho := Pipeline.OwnSemFacts.none _
  hbody c := (sumObligation (at0 m) c).loose
  hwaits := Pipeline.hwaits_of_owed_zero _ _ _ _ noLevels lvl0 0 fun _ _ => rfl
  pre c := iprop(StableHlo.held (c : Thread nD τ) (Pipeline.ucRefs τ sig) (buf0 m c) ∗ riding c)
  post c := iprop(StableHlo.held (c : Thread nD τ) (Pipeline.ucRefs τ sig) (buf1 m c) ∗ riding c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) noTables (pdats m) launch0.win launch0.arr_whole c
      ((pdats m 0 c).share_full fun _ => rfl) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m 0 c).Φ 0 from sumIn (at0 m) c)
    unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from sumOut (at0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (at0 m c) (at1 m c) ((pdats m 0 c).arrAt · cfg0.N) (sumExit m c) (sumRest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The elementwise region between `buf2` and the last state. Its windows sit on four buffers: at entry these are split
    out of the unscoped buffers and `output`'s is halved between its two windows; at exit the halves are joined and the
    four put back, the result array at what the pipeline leaves. -/
def lossSeg : Pipeline.RegionSeg (pcfgs (F := F)) noTables (pdats m) () defs₀ noVariants noLevels lvl0 1 where
  win := winFacts₀1
  block_pos := block_pos1
  stage_whole := stage_whole1
  K := PEmpty
  osem k := k.elim
  ho := Pipeline.OwnSemFacts.none _
  hbody c := (lossObligation (at2 m) c).loose
  hwaits := Pipeline.hwaits_of_owed_zero _ _ _ _ noLevels lvl0 1 fun _ _ => rfl
  pre c := iprop(StableHlo.held (c : Thread nD τ) (Pipeline.ucRefs τ sig) (buf2 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit : (unscopedBufs c (at2 m c) : sProp 𝕄) ⊢ iprop((pdats m 1 c).arrays ((pdats m 1 c).arrAt · 0) ∗ Pipeline.unscopedRest spec1 c (at2 m c)) := by
      rw [Pipeline.unscopedBufs_split₀ (Pipeline.pin (pcfgs (F := F)) noTables) 1 winFacts₀1.arr_unscoped c (at2 m c)]
      exact sep_mono (lossArrays_bufs (at2 m) c _ (at2 m c) fun _ => rfl).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (at2 m c)) ⊢ (unscopedBufs c (at3 m c) : sProp 𝕄) := by
      rw [Pipeline.unscopedBufs_split₀ (Pipeline.pin (pcfgs (F := F)) noTables) 1 winFacts₀1.arr_unscoped c (at3 m c)]
      refine sep_mono (lossArrays_bufs (at2 m) c _ (at3 m c) (lossExit m c)).1 (Entails.of_eq ?_)
      unfold Pipeline.unscopedRest
      exact bigSep_congr fun b hb => by
        rw [at3_of_ne m c b fun e => (Finset.mem_sdiff.mp hb).2 (Finset.mem_image.mpr ⟨4, Finset.mem_univ _, e.symm⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) noTables (pdats m) () defs₀ noVariants noLevels lvl0) :=
  [ .region (sumSeg m), .host (hostSeg m), .region (lossSeg m) ]

/-- @main is the run of the three segments. -/
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    in every final state each unscoped buffer of each core holds `buf3`'s contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = buf3 m c b) :=
  Pipeline.θ_run_regions_kit (pcfgs (F := F)) noTables (pdats m) () cellOf_inj emb₁ defs₀ noVariants noLevels lvl0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ riding c)) (Tₙ := lastState m)
    (hch := ⟨fun _ => .rfl, fun _ => .rfl, fun _ => .rfl, fun _ => .rfl⟩)
    (hinit := by
      refine Pipeline.initEach noLevels lvl0 fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf3 m c b)
    (hfin := fun c s' => by
      iintro ⟨⟨Hh, -⟩, HSI⟩
      unfold StableHlo.held
      imodintro
      iapply (pointsTo_read_all (Pipeline.ucRefs τ sig) (fun b => (((c : Thread nD τ)).1, b)) (buf3 m c) s')
      isplitl [Hh] <;> iassumption)
    (hQ := fun s h c => h c)

/-- THE FRAME: every weakly fair execution terminates with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (at3_arg0 m c), (h c _ (mem_uc main_arg1 (by decide))).trans (at3_arg1 m c)⟩) (run_all m ρ)

end Cert.KernelIdeal.Frame

end
-- ==== Proof.Spec.lean ====
/- The value the negative log-likelihood kernel and its reference both compute, index by index over the
   argument arrays, and the law between the two groupings of the log-determinant sum. No program is imported. -/
import Idealize.ShloMosaic.PureOps.Ideal
import Idealize.ShloMosaic.Lib.ValueIdx

noncomputable section

open scoped BigOperators

namespace Cert.Nll

open Idealize.ShloMosaic Idealize.ShloMosaic.ValueIdx

/-- Row `r` of the mean half (rows 0 … 4095) of the packed array. -/
abbrev meanRow (r : Fin 4096) : Fin 8192 := ⟨r.val, by omega⟩
/-- Row `r` of the diagonal-covariance half (rows 4096 … 8191) of the packed array. -/
abbrev diagRow (r : Fin 4096) : Fin 8192 := ⟨4096 + r.val, by omega⟩
/-- Row `r` of the `k`-th tile of 1024 rows of the packed array. -/
abbrev tileRow (k : Fin 8) (r : Fin 1024) : Fin 8192 := ⟨1024 * k.val + r.val, by omega⟩

/-- The sum of the logarithms over the `k`-th tile of 1024 rows. -/
def tileLog (o : (⟨2, ![8192, 2048]⟩ : Shape).Idx → EReal) (k : Fin 8) : EReal :=
  ∑ r : Fin 1024, ∑ q : Fin 2048, Ideal.log (o (ix2 (tileRow k r) q))

/-- The log-determinant as the kernel groups it: two partial sums, each started at zero and taking two tiles
    of the diagonal-covariance half, added. -/
def logdetK (o : (⟨2, ![8192, 2048]⟩ : Shape).Idx → EReal) : EReal :=
  ((0 + tileLog o 4) + tileLog o 5) + ((0 + tileLog o 6) + tileLog o 7)

/-- The log-determinant as one sum over the diagonal-covariance half, started at zero. -/
def logdetR (o : (⟨2, ![8192, 2048]⟩ : Shape).Idx → EReal) : EReal :=
  0 + ∑ r : Fin 4096, ∑ q : Fin 2048, Ideal.log (o (ix2 (diagRow r) q))

/-- The result at row `r`, column `c`: minus (the squared error over the variance, plus the log-determinant). -/
def Gat (o : (⟨2, ![8192, 2048]⟩ : Shape).Idx → EReal) (t : (⟨2, ![4096, 2048]⟩ : Shape).Idx → EReal)
    (r : Fin 4096) (c : Fin 2048) : EReal :=
  0 - (Ideal.div ((o (ix2 (meanRow r) c) - t (ix2 r c)) * (o (ix2 (meanRow r) c) - t (ix2 r c))) (o (ix2 (diagRow r) c))
        + logdetK o)

/-- The result array. -/
def G (o : (⟨2, ![8192, 2048]⟩ : Shape).Idx → EReal) (t : (⟨2, ![4096, 2048]⟩ : Shape).Idx → EReal) :
    (⟨2, ![4096, 2048]⟩ : Shape).Idx → EReal :=
  fun j => Gat o t (j 0) (j 1)

theorem G_apply (o : (⟨2, ![8192, 2048]⟩ : Shape).Idx → EReal) (t : (⟨2, ![4096, 2048]⟩ : Shape).Idx → EReal)
    (r : Fin 4096) (c : Fin 2048) :
    G o t (ix2 r c)
      = 0 - (Ideal.div ((o (ix2 (meanRow r) c) - t (ix2 r c)) * (o (ix2 (meanRow r) c) - t (ix2 r c))) (o (ix2 (diagRow r) c))
              + logdetK o) := rfl

/-- A sum over 4096 = 4 × 1024 rows is the sum over four tiles of the sums over each tile's 1024 rows. -/
theorem sum_four_tiles {M : Type*} [AddCommMonoid M] (f : Fin 4096 → M) :
    ∑ i : Fin 4096, f i = ∑ k : Fin 4, ∑ r : Fin 1024, f ⟨1024 * k.val + r.val, by omega⟩ := by
  rw [← Equiv.sum_comp (finProdFinEquiv (m := 4) (n := 1024)) (fun i : Fin (4 * 1024) => f i), Fintype.sum_prod_type]
  refine Finset.sum_congr rfl fun k _ => Finset.sum_congr rfl fun r _ => congrArg f (Fin.ext ?_)
  show r.val + 1024 * k.val = 1024 * k.val + r.val
  omega

/-- The four tiles' sums, each started at zero in pairs, are the whole sum started at zero: only the
    commutative monoid's laws. -/
theorem group_four_tiles {M : Type*} [AddCommMonoid M] (f : Fin 4096 → M) :
    ((0 + ∑ r : Fin 1024, f ⟨1024 * 0 + r.val, by omega⟩) + ∑ r : Fin 1024, f ⟨1024 * 1 + r.val, by omega⟩)
        + ((0 + ∑ r : Fin 1024, f ⟨1024 * 2 + r.val, by omega⟩) + ∑ r : Fin 1024, f ⟨1024 * 3 + r.val, by omega⟩)
      = 0 + ∑ i : Fin 4096, f i := by
  rw [sum_four_tiles f, Fin.sum_univ_four]
  simp only [zero_add, add_assoc]
  rfl

/-- The kernel's grouping of the log-determinant is the reference's single sum. -/
theorem logdetK_eq_logdetR (o : (⟨2, ![8192, 2048]⟩ : Shape).Idx → EReal) : logdetK o = logdetR o := by
  unfold logdetK logdetR
  rw [← group_four_tiles (fun r : Fin 4096 => ∑ q : Fin 2048, Ideal.log (o (ix2 (diagRow r) q)))]
  unfold tileLog
  have key : ∀ (k : Fin 8) (k' : Nat) (hk : k.val = 4 + k') (hk' : k' < 4),
      (∑ r : Fin 1024, ∑ q : Fin 2048, Ideal.log (o (ix2 (tileRow k r) q)))
        = ∑ r : Fin 1024, ∑ q : Fin 2048, Ideal.log (o (ix2 (diagRow ⟨1024 * k' + r.val, by omega⟩) q)) :=
    fun k k' hk hk' => Finset.sum_congr rfl fun r _ => Finset.sum_congr rfl fun q _ =>
      congrArg (fun i : Fin 8192 => Ideal.log (o (ix2 i q))) (Fin.ext (by
        show 1024 * k.val + r.val = 4096 + (1024 * k' + r.val)
        omega))
  rw [key 4 0 rfl (by omega), key 5 1 rfl (by omega), key 6 2 rfl (by omega), key 7 3 rfl (by omega)]

end Cert.Nll

end
-- ==== Proof.BlockReads.lean ====
/- Which rows of its array each input window's block holds at a grid point: a block's element sits, on each axis,
   at the block index times the block's extent plus its own coordinate, and the block indices are decided once over
   the two grids. The summing call's tile at point t is rows 1024 (t + 4) … of the packed array (the variance half);
   the elementwise call's blocks at point t are rows 512 t … of the mean half, the same rows of the variance half
   (block t + 8), rows 512 t … of the target, and the one-by-one sum of logarithms. No float operation is involved. -/
import proofs.«152096_j45028437131761_2_alg».proof.Proof.KernelIdeal.SumShared
import proofs.«152096_j45028437131761_2_alg».proof.Proof.KernelIdeal.LossRegion
import proofs.«152096_j45028437131761_2_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen Cert.KernelIdeal.Frame

variable {F : FTy → Type} [FloatOps F]

variable (V : (c : Dev nD) → (b : Ref sig .tc) → Buf (Elt F) ((c : Thread nD τ).loc b))

/-! ## The grids' sizes and the block indices, decided over the grids -/

theorem lt_four (t : Fin cfg0.N) : t.val < 4 := lt_of_lt_of_eq t.isLt Gen.N_0
theorem lt_eight (t : Fin cfg1.N) : t.val < 8 := lt_of_lt_of_eq t.isLt Gen.N_1

/-- The summing call's input tile at point `t` is tile `t + 4` of the packed array's eight. -/
theorem idx0_0 : ∀ t : Fin cfg0.N, win0_0.index t (0 : Fin 2) = t.val + 4 ∧ win0_0.index t (1 : Fin 2) = 0 :=
  (by decide +kernel : ∀ t : Fin grid0.N, win0_0.index t (0 : Fin 2) = t.val + 4 ∧ win0_0.index t (1 : Fin 2) = 0)
/-- The elementwise call's mean block at point `t` is block `t` of the packed array's sixteen, -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
/-- its variance block is block `t + 8`, -/
theorem idx1_1 : ∀ t : Fin cfg1.N, win1_1.index t (0 : Fin 2) = t.val + 8 ∧ win1_1.index t (1 : Fin 2) = 0 :=
  (by decide +kernel : ∀ t : Fin grid1.N, win1_1.index t (0 : Fin 2) = t.val + 8 ∧ win1_1.index t (1 : Fin 2) = 0)
/-- its target block is block `t` of the target's eight, -/
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
/-- and the sum of logarithms is the one block of its array. -/
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

/-- The row of the half arrays that row `p` of the elementwise call's block at point `t` is. -/
abbrev lossRow (t : Fin cfg1.N) (p : Fin 512) : Fin 4096 := ⟨512 * t.val + p.val, by have := lt_eight t; omega⟩

/-! ## The summing call's tile -/

/-- The input tile at point `t`, row `r`, is row `1024 (t + 4) + r` of the packed array. -/
theorem sumBlk_apply (c : Dev nD) (t : Fin cfg0.N) (r : Fin 1024) (q : Fin 2048) :
    sumBlk V c 0 t (ix2 r q)
      = V c main_arg0 (ix2 (⟨1024 * (t.val + 4) + r.val, by have := lt_four t; omega⟩ : Fin 8192) q) := by
  obtain ⟨e0, e1⟩ := idx0_0 t
  show V c main_arg0 (((cfg0.win 0).blk t).view.emb (ix2 r q)) = _
  refine congrArg (V c main_arg0) (funext fun a => Fin.ext ?_)
  match a with
  | ⟨0, _⟩ => show win0_0.index t (0 : Fin 2) * 1024 + 1 * r.val = 1024 * (t.val + 4) + r.val; omega
  | ⟨1, _⟩ => show win0_0.index t (1 : Fin 2) * 2048 + 1 * q.val = q.val; omega

/-- The same, the row named as row `r` of tile `t + 4`. -/
theorem sumBlk_tile (c : Dev nD) (t : Fin cfg0.N) (r : Fin 1024) (q : Fin 2048) :
    sumBlk V c 0 t (ix2 r q)
      = V c main_arg0 (ix2 (Cert.Nll.tileRow ⟨t.val + 4, by have := lt_four t; omega⟩ r) q) :=
  sumBlk_apply V c t r q

/-! ## The elementwise call's blocks -/

/-- The mean block at point `t`, row `p`, is row `512 t + p` of the packed array. -/
theorem lossBlk0_apply (c : Dev nD) (t : Fin cfg1.N) (p : Fin 512) (q : Fin 2048) :
    lossBlk V c 0 t (ix2 p q)
      = V c main_arg0 (ix2 (⟨512 * t.val + p.val, by have := lt_eight t; omega⟩ : Fin 8192) q) := by
  obtain ⟨e0, e1⟩ := idx1_0 t
  show V c main_arg0 (((cfg1.win 0).blk t).view.emb (ix2 p q)) = _
  refine congrArg (V c main_arg0) (funext fun a => Fin.ext ?_)
  match a with
  | ⟨0, _⟩ => show win1_0.index t (0 : Fin 2) * 512 + 1 * p.val = 512 * t.val + p.val; omega
  | ⟨1, _⟩ => show win1_0.index t (1 : Fin 2) * 2048 + 1 * q.val = q.val; omega

/-- The variance block at point `t`, row `p`, is row `4096 + 512 t + p` of the packed array. -/
theorem lossBlk1_apply (c : Dev nD) (t : Fin cfg1.N) (p : Fin 512) (q : Fin 2048) :
    lossBlk V c 1 t (ix2 p q)
      = V c main_arg0 (ix2 (⟨4096 + 512 * t.val + p.val, by have := lt_eight t; omega⟩ : Fin 8192) q) := by
  obtain ⟨e0, e1⟩ := idx1_1 t
  show V c main_arg0 (((cfg1.win 1).blk t).view.emb (ix2 p q)) = _
  refine congrArg (V c main_arg0) (funext fun a => Fin.ext ?_)
  match a with
  | ⟨0, _⟩ => show win1_1.index t (0 : Fin 2) * 512 + 1 * p.val = 4096 + 512 * t.val + p.val; omega
  | ⟨1, _⟩ => show win1_1.index t (1 : Fin 2) * 2048 + 1 * q.val = q.val; omega

/-- The target block at point `t`, row `p`, is row `512 t + p` of the target. -/
theorem lossBlk2_apply (c : Dev nD) (t : Fin cfg1.N) (p : Fin 512) (q : Fin 2048) :
    lossBlk V c 2 t (ix2 p q)
      = V c main_arg1 (ix2 (⟨512 * t.val + p.val, by have := lt_eight t; omega⟩ : Fin 4096) q) := by
  obtain ⟨e0, e1⟩ := idx1_2 t
  show V c main_arg1 (((cfg1.win 2).blk t).view.emb (ix2 p q)) = _
  refine congrArg (V c main_arg1) (funext fun a => Fin.ext ?_)
  match a with
  | ⟨0, _⟩ => show win1_2.index t (0 : Fin 2) * 512 + 1 * p.val = 512 * t.val + p.val; omega
  | ⟨1, _⟩ => show win1_2.index t (1 : Fin 2) * 2048 + 1 * q.val = q.val; omega

/-- The sum-of-logarithms block is its whole one-by-one array, at every point. -/
theorem lossBlk3_apply (c : Dev nD) (t : Fin cfg1.N) :
    lossBlk V c 3 t (ix2 (0 : Fin 1) (0 : Fin 1)) = V c main_v6 (ix2 (0 : Fin 1) (0 : Fin 1)) := by
  obtain ⟨e0, e1⟩ := idx1_3 t
  show V c main_v6 (((cfg1.win 3).blk t).view.emb (ix2 (0 : Fin 1) (0 : Fin 1))) = _
  refine congrArg (V c main_v6) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

/-! ## The same three, the rows named as the specification names them -/

theorem lossBlk0_row (c : Dev nD) (t : Fin cfg1.N) (p : Fin 512) (q : Fin 2048) :
    lossBlk V c 0 t (ix2 p q) = V c main_arg0 (ix2 (Cert.Nll.meanRow (lossRow t p)) q) :=
  lossBlk0_apply V c t p q

theorem lossBlk1_row (c : Dev nD) (t : Fin cfg1.N) (p : Fin 512) (q : Fin 2048) :
    lossBlk V c 1 t (ix2 p q) = V c main_arg0 (ix2 (Cert.Nll.diagRow (lossRow t p)) q) :=
  (lossBlk1_apply V c t p q).trans (congrArg (fun i : Fin 8192 => V c main_arg0 (ix2 i q)) (Fin.ext (by
    show 4096 + 512 * t.val + p.val = 4096 + (512 * t.val + p.val)
    omega)))

theorem lossBlk2_row (c : Dev nD) (t : Fin cfg1.N) (p : Fin 512) (q : Fin 2048) :
    lossBlk V c 2 t (ix2 p q) = V c main_arg1 (ix2 (lossRow t p) q) :=
  lossBlk2_apply V c t p q

end Cert.KernelIdeal.Blocks

end
-- ==== Proof.OutBlocks.lean ====
/- Which part of its array each OUTPUT window's block is at a grid point, and that the written-back blocks cover
   the array. The summing call's output block at point t is block t / 2 of the two 8-row blocks of the partial sums'
   array, written back at the odd points; the elementwise call's output block at point t is rows 512 t … of the
   result, written back at every point. No float operation is involved. -/
import proofs.«152096_j45028437131761_2_alg».proof.Proof.KernelIdeal.SumShared
import proofs.«152096_j45028437131761_2_alg».proof.Proof.KernelIdeal.LossRegion
import proofs.«152096_j45028437131761_2_alg».proof.Proof.BlockReads

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen Cert.KernelIdeal.Frame

variable {F : FTy → Type} [FloatOps F]

/-! ## The block indices, decided over the grids -/

/-- The summing call's output block at point `t` is block `t / 2` (one per half of the rows). -/
theorem idxOut0 : ∀ t : Fin cfg0.N, win0_1.index t (0 : Fin 2) = t.val / 2 ∧ win0_1.index t (1 : Fin 2) = 0 :=
  (by decide +kernel : ∀ t : Fin grid0.N, win0_1.index t (0 : Fin 2) = t.val / 2 ∧ win0_1.index t (1 : Fin 2) = 0)
/-- The elementwise call's output block at point `t` is block `t`. -/
theorem idxOut1 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-! ## The summing call's output block -/

/-- Read through the output block at point `t`, an array gives its rows `8 (t / 2) …`. -/
theorem outBlk0_read (c : Dev nD) (A : Buf (Elt F) ((c : Thread nD τ).loc main_v0)) (t : Fin cfg0.N) (u : Fin 8) (l : Fin 128) :
    ((cfg0.win 1).blk t).view.read (Elt F) A (ix2 u l)
      = A (ix2 (⟨8 * (t.val / 2) + u.val, by have := lt_four t; omega⟩ : Fin 16) l) := by
  obtain ⟨e0, e1⟩ := idxOut0 t
  show A (((cfg0.win 1).blk t).view.emb (ix2 u l)) = _
  refine congrArg A (funext fun a => Fin.ext ?_)
  match a with
  | ⟨0, _⟩ => show win0_1.index t (0 : Fin 2) * 8 + 1 * u.val = 8 * (t.val / 2) + u.val; omega
  | ⟨1, _⟩ => show win0_1.index t (1 : Fin 2) * 128 + 1 * l.val = l.val; omega

/-- An index of the partial sums' array is in point `t`'s block iff each coordinate is in the block's range. -/
theorem mem_outBlk0 (t : Fin cfg0.N) (i : S16x128.Idx) :
    i ∈ ((cfg0.win 1).blk t).view.set
      ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every index of the partial sums' array is in the block of a point that writes it back: rows 0 … 7 at point 1,
    rows 8 … 15 at point 3. -/
theorem outBlk0_cover : ∀ i : S16x128.Idx, ∃ t : Fin cfg0.N, (cfg0.win 1).flush t = true ∧ i ∈ ((cfg0.win 1).blk t).view.set := by
  intro i
  have hi0 : (i 0).val < 16 := idx2_lt0 i
  have hi1 : (i 1).val < 128 := idx2_lt1 i
  obtain ⟨t, ht⟩ : ∃ t : Fin cfg0.N, t.val = 2 * ((i 0).val / 8) + 1 :=
    ⟨⟨2 * ((i 0).val / 8) + 1, lt_of_lt_of_eq (by omega : 2 * ((i 0).val / 8) + 1 < 4) Gen.N_0.symm⟩, rfl⟩
  obtain ⟨e0, e1⟩ := idxOut0 t
  refine ⟨t, (Gen.flush0_1 t).mpr (by omega), ?_⟩
  rw [mem_outBlk0]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-! ## The elementwise call's output block -/

/-- Read through the output block at point `t`, an array gives its rows `512 t …`. -/
theorem outBlk1_read (c : Dev nD) (A : Buf (Elt F) ((c : Thread nD τ).loc main_v7)) (t : Fin cfg1.N) (p : Fin 512) (q : Fin 2048) :
    ((cfg1.win 4).blk t).view.read (Elt F) A (ix2 p q) = A (ix2 (lossRow t p) q) := by
  obtain ⟨e0, e1⟩ := idxOut1 t
  show A (((cfg1.win 4).blk t).view.emb (ix2 p q)) = _
  refine congrArg A (funext fun a => Fin.ext ?_)
  match a with
  | ⟨0, _⟩ => show win1_4.index t (0 : Fin 2) * 512 + 1 * p.val = 512 * t.val + p.val; omega
  | ⟨1, _⟩ => show win1_4.index t (1 : Fin 2) * 2048 + 1 * q.val = q.val; omega

/-- An index of the result is in point `t`'s block iff each coordinate is in the block's range. -/
theorem mem_outBlk1 (t : Fin cfg1.N) (i : S4096x2048.Idx) :
    i ∈ ((cfg1.win 4).blk t).view.set
      ↔ ∀ a : Fin 2, win1_4.index t a * S512x2048.size a ≤ (i a).val ∧ (i a).val < win1_4.index t a * S512x2048.size a + S512x2048.size a := by
  show i ∈ ((View.whole main_v7).slice (win1_4.rect t)).set ↔ _
  rw [View.set_slice_whole, Rect.mem_set_unit]
  exact Iff.rfl

/-- Every index of the result is in the block of the point its row's block of 512 names, and every point writes back. -/
theorem outBlk1_cover : ∀ i : S4096x2048.Idx, ∃ t : Fin cfg1.N, (cfg1.win 4).flush t = true ∧ i ∈ ((cfg1.win 4).blk t).view.set := by
  intro i
  have hi0 : (i 0).val < 4096 := idx2_lt0 i
  have hi1 : (i 1).val < 2048 := idx2_lt1 i
  obtain ⟨t, ht⟩ : ∃ t : Fin cfg1.N, t.val = (i 0).val / 512 :=
    ⟨⟨(i 0).val / 512, lt_of_lt_of_eq (by omega : (i 0).val / 512 < 8) Gen.N_1.symm⟩, rfl⟩
  obtain ⟨e0, e1⟩ := idxOut1 t
  refine ⟨t, Gen.flush1_4 t, ?_⟩
  rw [mem_outBlk1]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 2048 ≤ (i 1).val ∧ (i 1).val < win1_4.index t (1 : Fin 2) * 2048 + 2048; omega

end Cert.KernelIdeal.Blocks

end
-- ==== Proof.Payloads.lean ====
/- The kernel's stored values read at an index: the accumulator's zero, the tile's sum of logarithms added to
   the accumulator, the scalar spread over the result block, the loss at an element, and the host's sum of
   the two partial sums. -/
import proofs.«152096_j45028437131761_2_alg».proof.Proof.Gen.KernelIdeal.Skeleton
import proofs.«152096_j45028437131761_2_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## Small facts about the shapes -/

/-- A one-by-one array has one index. -/
theorem idx11 (j : (⟨2, ![1, 1]⟩ : Shape).Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- In a shape with one element every row-major position is zero. -/
theorem rowMajor_val_of_numel_one {s : Shape} (h1 : s.numel = 1) (i : s.Idx) : (s.rowMajor i).val = 0 := by
  have := (s.rowMajor i).isLt
  omega

/-- A column `[a]` cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-by-one array, cast to its own shape and spread over any larger shape, reads its one element everywhere. -/
theorem bcast11 {α : Type} {t : Shape} (v : S1x1.Idx → α) (hc : S1x1.ShapeCasts S1x1) (h : S1x1.Broadcasts t) (j : t.Idx) :
    broadcastTo t (shapeCast S1x1 v hc) h j = v (ix2 (0 : Fin 1) (0 : Fin 1)) := by
  refine (broadcastTo_apply _ h j (ix2 (0 : Fin 1) (0 : Fin 1)) fun a => ?_).trans (congrFun (shapeCast_self v hc) _)
  match a with
  | ⟨0, _⟩ => rfl
  | ⟨1, _⟩ => rfl

/-- The sum along the lanes (axis 1) of a `[1024, 2048]` array at row `r`. -/
theorem laneSum (src : FVec Ideal S1024x2048 .f32) (h : S1024x2048.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ q : Fin 2048, src (ix2 r q) := by
  refine (Ideal.multiReduction_add_single src 0x00000000#32 h hφ hacc (ix1 r)).trans ?_
  refine Finset.sum_congr rfl fun q _ => congrArg src (funext fun a => Fin.ext ?_)
  match a with
  | ⟨0, _⟩ => rfl
  | ⟨1, _⟩ => rfl

/-- The sum along the rows (axis 0) of a `[1024, 1]` column. -/
theorem colSum (src : FVec Ideal S1024x1 .f32) (h : S1024x1.Reduces [0] S1) (hφ : FKind.Formats .f32)
    (hacc : (0x00000000#32 : BitVec 32) = 0x00000000#32) :
    multiReduction (F := Ideal) .add [0] S1 src 0x00000000#32 h hφ hacc (ix1 (0 : Fin 1)) = ∑ r : Fin 1024, src (ix2 r (0 : Fin 1)) := by
  refine (Ideal.multiReduction_add_single src 0x00000000#32 h hφ hacc (ix1 (0 : Fin 1))).trans ?_
  refine Finset.sum_congr rfl fun r _ => congrArg src (funext fun a => Fin.ext ?_)
  match a with
  | ⟨0, _⟩ => rfl
  | ⟨1, _⟩ => rfl

/-! ## The payloads -/

/-- The accumulator is started at zero. -/
theorem zero_payload (j : S1x1.Idx) : Gen.k0_pay1 (F := Ideal) j = 0 := by
  unfold Gen.k0_pay1
  refine (congrFun (shapeCast_self _ _) j).trans ?_
  exact Ideal.ofBits_zero_f32

/-- A step adds to the accumulator the sum, over the tile's rows, of the sums along the lanes of the logarithms. -/
theorem acc_payload (x : Vec Ideal S1024x2048 .f32) (s : Vec Ideal S1x1 .f32) (j : S1x1.Idx) :
    Gen.k0_pay2 x s j = s (ix2 0 0) + ∑ r : Fin 1024, ∑ q : Fin 2048, Ideal.log (x (ix2 r q)) := by
  obtain rfl := idx11 j
  unfold Gen.k0_pay2
  refine (congrFun (shapeCast_self _ _) _).trans ?_
  refine congrArg (s (ix2 0 0) + ·) ?_
  refine (shapeCast_a_1a_apply _ _ (0 : Fin 1) (0 : Fin 1)).trans ?_
  refine (colSum _ _ _ _).trans ?_
  refine Finset.sum_congr rfl fun r _ => ?_
  refine (shapeCast_a_a1_apply _ _ r (0 : Fin 1)).trans ?_
  exact laneSum _ _ _ _ r

/-- The accumulator's one element is written over the whole result block. -/
theorem bcast_payload (v : Vec Ideal S1x1 .f32) (j : S8x128.Idx) : Gen.k0_pay3 v j = v (ix2 0 0) := by
  unfold Gen.k0_pay3
  exact bcast11 v _ _ j

/-- The loss at an element: zero minus (the squared error over the variance, plus the log-determinant). -/
theorem loss_payload (x0 x1 x4 : Vec Ideal S512x2048 .f32) (x6 : Vec Ideal S1x1 .f32) (p : Fin 512) (q : Fin 2048) :
    Gen.k1_pay1 x0 x1 x4 x6 (ix2 p q)
      = 0 - (Ideal.div ((x0 (ix2 p q) - x1 (ix2 p q)) * (x0 (ix2 p q) - x1 (ix2 p q))) (x4 (ix2 p q)) + x6 (ix2 0 0)) := by
  unfold Gen.k1_pay1
  refine (congrArg (fun z : EReal => Ideal.ofBits .f32 0x00000000#32
      - (Ideal.div ((x0 (ix2 p q) - x1 (ix2 p q)) * (x0 (ix2 p q) - x1 (ix2 p q))) (x4 (ix2 p q)) + z))
      (bcast11 x6 _ _ (ix2 p q))).trans ?_
  rw [Ideal.ofBits_zero_f32]

/-! ## The host's sum of the two partial sums -/

/-- What the host computes between the two kernels: the elements `(0, 0)` and `(8, 0)` of the partial sums'
    array, each as a scalar, added, as a one-by-one array. -/
def hostSum (a : FVec Ideal S16x128 .f32) : FVec Ideal S1x1 .f32 :=
  shapeCast S1x1
    (addf (shapeCast S_ (extractStridedSlice S1x1 ![0, 0] a Gen.slices_S16x128_S1x1_0_0) Gen.shapeCasts_S1x1_S_)
      (shapeCast S_ (extractStridedSlice S1x1 ![8, 0] a Gen.slices_S16x128_S1x1_8_0) Gen.shapeCasts_S1x1_S_))
    Gen.shapeCasts_S_S1x1

theorem host_sum (a : FVec Ideal S16x128 .f32) (j : S1x1.Idx) :
    hostSum a j = a (ix2 (0 : Fin 16) (0 : Fin 128)) + a (ix2 (8 : Fin 16) (0 : Fin 128)) := by
  obtain rfl := idx11 j
  have h0 : S_.numel = 1 := by decide
  have h1 : S1x1.numel = 1 := by decide
  unfold hostSum
  refine (shapeCast_apply _ Gen.shapeCasts_S_S1x1 _ ix0
    ((rowMajor_val_of_numel_one h0 _).trans (rowMajor_val_of_numel_one h1 _).symm)).trans ?_
  have e0 : shapeCast S_ (extractStridedSlice S1x1 ![0, 0] a Gen.slices_S16x128_S1x1_0_0) Gen.shapeCasts_S1x1_S_ ix0
      = a (ix2 (0 : Fin 16) (0 : Fin 128)) := by
    refine (shapeCast_apply _ Gen.shapeCasts_S1x1_S_ ix0 (ix2 (0 : Fin 1) (0 : Fin 1))
      ((rowMajor_val_of_numel_one h1 _).trans (rowMajor_val_of_numel_one h0 _).symm)).trans ?_
    refine extractStridedSlice_apply ![0, 0] a Gen.slices_S16x128_S1x1_0_0 _ (ix2 (0 : Fin 16) (0 : Fin 128)) fun b => ?_
    match b with
    | ⟨0, _⟩ => rfl
    | ⟨1, _⟩ => rfl
  have e8 : shapeCast S_ (extractStridedSlice S1x1 ![8, 0] a Gen.slices_S16x128_S1x1_8_0) Gen.shapeCasts_S1x1_S_ ix0
      = a (ix2 (8 : Fin 16) (0 : Fin 128)) := by
    refine (shapeCast_apply _ Gen.shapeCasts_S1x1_S_ ix0 (ix2 (0 : Fin 1) (0 : Fin 1))
      ((rowMajor_val_of_numel_one h1 _).trans (rowMajor_val_of_numel_one h0 _).symm)).trans ?_
    refine extractStridedSlice_apply ![8, 0] a Gen.slices_S16x128_S1x1_8_0 _ (ix2 (8 : Fin 16) (0 : Fin 128)) fun b => ?_
    match b with
    | ⟨0, _⟩ => rfl
    | ⟨1, _⟩ => rfl
  exact congrArg₂ (· + ·) e0 e8

end Cert.KernelIdeal.Pay

end
-- ==== Proof.KernelValue.lean ====
/- The kernel's side of the value claim, at the ideal values: what the summing call leaves in the partial sums'
   array (each half's two tile sums, added to a zero start, in every entry of that half's block), the host's sum of
   the two partial sums (the log-determinant as the kernel groups it), and the elementwise call's result, which is the
   specification's array. -/
import proofs.«152096_j45028437131761_2_alg».proof.Proof.KernelIdeal.Buffers
import proofs.«152096_j45028437131761_2_alg».proof.Proof.OutBlocks
import proofs.«152096_j45028437131761_2_alg».proof.Proof.BlockReads
import proofs.«152096_j45028437131761_2_alg».proof.Proof.Payloads
import proofs.«152096_j45028437131761_2_alg».proof.Proof.Spec

set_option maxRecDepth 16384

noncomputable section

open scoped BigOperators

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Blocks Cert.KernelIdeal.Pay

/-! ## Payload algebra, for any blocks -/

/-- The output block after a last tile `X` whose accumulator a first tile `Y` started: in every entry, zero plus
    `Y`'s sum of logarithms, plus `X`'s. -/
theorem outLast_apply (X Y : Vec Ideal S1024x2048 .f32) (j : S8x128.Idx) :
    outLast X (accFirst Y) j
      = (0 + ∑ r : Fin 1024, ∑ q : Fin 2048, Ideal.log (Y (ix2 r q))) + ∑ r : Fin 1024, ∑ q : Fin 2048, Ideal.log (X (ix2 r q)) := by
  unfold outLast accFirst
  rw [bcast_payload, acc_payload, acc_payload, zero_payload]

/-- The elementwise call's output block at an element, from the four blocks it reads (mean, variance, target, sum of
    logarithms). -/
theorem lossOut_apply (x0 x1 x2 : Vec Ideal S512x2048 .f32) (x3 : Vec Ideal S1x1 .f32) (p : Fin 512) (q : Fin 2048) :
    lossOut x0 x1 x2 x3 (ix2 p q)
      = 0 - (Ideal.div ((x0 (ix2 p q) - x2 (ix2 p q)) * (x0 (ix2 p q) - x2 (ix2 p q))) (x1 (ix2 p q)) + x3 (ix2 0 0)) := by
  unfold lossOut
  rw [View.canon_unit_zero zeroOff]
  simp only [View.ld_unit_zero (S := S512x2048) zeroOff, View.ld_unit_zero (S := S1x1) zeroOff]
  exact loss_payload x0 x2 x1 x3 p q

/-- After an even position the accumulator is the first-tile value of that position's tile (any float instance). -/
theorem sumAt_snd_first {F : FTy → Type} [FloatOps F] (V : (c : Dev nD) → (b : Ref sig .tc) → Buf (Elt F) ((c : Thread nD τ).loc b))
    (c : Dev nD) (n : ℕ) (hn : n < cfg0.N) (h : n % 2 = 0) :
    (sumAt V c n hn).2 = accFirst (sumBlk V c 0 ⟨n, hn⟩) :=
  congrArg Prod.snd (sumAt_first V c ⟨n, hn⟩ h)

variable (m : (ℓ : Loc nD τ sig) → Buf (Elt Ideal) ℓ) (c : Dev nD)

/-- The packed array as core `c` holds it at launch; -/
abbrev arrO : (⟨2, ![8192, 2048]⟩ : Shape).Idx → EReal := m ((c : Thread nD τ).loc main_arg0)
/-- the target likewise. -/
abbrev arrT : (⟨2, ![4096, 2048]⟩ : Shape).Idx → EReal := m ((c : Thread nD τ).loc main_arg1)

/-! ## The summing call -/

/-- The sum of logarithms over the input tile at point `t` is the sum over tile `t + 4` of the packed array. -/
theorem tile_sum (t : Fin cfg0.N) :
    (∑ r : Fin 1024, ∑ q : Fin 2048, Ideal.log (sumBlk (at0 m) c 0 t (ix2 r q)))
      = Cert.Nll.tileLog (arrO m c) ⟨t.val + 4, by have := lt_four t; omega⟩ := by
  unfold Cert.Nll.tileLog
  exact Finset.sum_congr rfl fun r _ => Finset.sum_congr rfl fun q _ => congrArg Ideal.log (sumBlk_tile (at0 m) c t r q)

/-- What an odd point writes back: in every entry of the block, zero plus the sum over the tile before, plus the sum
    over its own tile. -/
theorem flushedRow (t : Fin cfg0.N) (hp : t.val % 2 = 1) (j : S8x128.Idx) :
    (sumAt (at0 m) c t.val t.isLt).1 j
      = (0 + Cert.Nll.tileLog (arrO m c) ⟨t.val + 3, by have := lt_four t; omega⟩)
          + Cert.Nll.tileLog (arrO m c) ⟨t.val + 4, by have := lt_four t; omega⟩ := by
  have hlt : t.val - 1 < cfg0.N := Nat.lt_of_le_of_lt (Nat.sub_le _ _) t.isLt
  have e2 : (sumAt (at0 m) c (t.val - 1) hlt).2 = accFirst (sumBlk (at0 m) c 0 ⟨t.val - 1, hlt⟩) :=
    sumAt_snd_first (at0 m) c (t.val - 1) hlt (by omega)
  refine (congrFun (congrArg Prod.fst (sumAt_last (at0 m) c t hp)) j).trans ?_
  show outLast (sumBlk (at0 m) c 0 t) (sumAt (at0 m) c (t.val - 1) hlt).2 j = _
  rw [e2]
  refine (outLast_apply _ _ j).trans ?_
  refine congrArg₂ (fun a b : EReal => (0 + a) + b) ((tile_sum m c ⟨t.val - 1, hlt⟩).trans ?_) (tile_sum m c t)
  exact congrArg (Cert.Nll.tileLog (arrO m c)) (Fin.ext (by show t.val - 1 + 4 = t.val + 3; omega))

/-- The partial sums' array by its row: the first half's sum in rows 0 … 7, the second half's in rows 8 … 15. -/
def rowVal (o : (⟨2, ![8192, 2048]⟩ : Shape).Idx → EReal) (n : ℕ) : EReal :=
  if n < 8 then (0 + Cert.Nll.tileLog o 4) + Cert.Nll.tileLog o 5 else (0 + Cert.Nll.tileLog o 6) + Cert.Nll.tileLog o 7
theorem rowVal_lo (o : (⟨2, ![8192, 2048]⟩ : Shape).Idx → EReal) {n : ℕ} (h : n < 8) :
    rowVal o n = (0 + Cert.Nll.tileLog o 4) + Cert.Nll.tileLog o 5 := if_pos h
theorem rowVal_hi (o : (⟨2, ![8192, 2048]⟩ : Shape).Idx → EReal) {n : ℕ} (h : ¬n < 8) :
    rowVal o n = (0 + Cert.Nll.tileLog o 6) + Cert.Nll.tileLog o 7 := if_neg h

/-- The array the summing call leaves. -/
def sumsG : S16x128.Idx → EReal := fun j => rowVal (arrO m c) (j 0).val

theorem sums_eq : sums m c = sumsG m c := by
  unfold sums
  refine (sumDat (at0 m) c).arrAt_eq_of_cover 1 (sumsG m c) (fun t hf => ?_) outBlk0_cover
  have hp : t.val % 2 = 1 := (Gen.flush0_1 t).mp hf
  have h4 := lt_four t
  funext j
  obtain ⟨u, l, rfl⟩ : ∃ (u : Fin 8) (l : Fin 128), j = ix2 u l := ⟨j 0, j 1, eq_ix2 (n0 := 8) (n1 := 128) j⟩
  refine Eq.trans ?_ (outBlk0_read (F := Ideal) c (sumsG m c) t u l).symm
  show (sumDat (at0 m) c).after 1 t (ix2 u l) = rowVal (arrO m c) (8 * (t.val / 2) + u.val)
  rw [sumAfter1, flushedRow m c t hp]
  by_cases h1 : t.val = 1
  · rw [rowVal_lo _ (by omega)]
    exact congrArg₂ (fun a b : EReal => (0 + a) + b)
      (congrArg (Cert.Nll.tileLog (arrO m c)) (Fin.ext (by show t.val + 3 = 4; omega)))
      (congrArg (Cert.Nll.tileLog (arrO m c)) (Fin.ext (by show t.val + 4 = 5; omega)))
  · rw [rowVal_hi _ (by omega)]
    exact congrArg₂ (fun a b : EReal => (0 + a) + b)
      (congrArg (Cert.Nll.tileLog (arrO m c)) (Fin.ext (by show t.val + 3 = 6; omega)))
      (congrArg (Cert.Nll.tileLog (arrO m c)) (Fin.ext (by show t.val + 4 = 7; omega)))

/-- The partial sums' array, entry by entry. -/
theorem sums_apply (j : S16x128.Idx) :
    sums m c j = if (j 0).val < 8 then (0 + Cert.Nll.tileLog (arrO m c) 4) + Cert.Nll.tileLog (arrO m c) 5
      else (0 + Cert.Nll.tileLog (arrO m c) 6) + Cert.Nll.tileLog (arrO m c) 7 :=
  congrFun (sums_eq m c) j

/-! ## The host's sum -/

/-- The one-by-one array the elementwise call reads holds the log-determinant as the kernel groups it. -/
theorem logdet_entry : at2 m c main_v6 (ix2 (0 : Fin 1) (0 : Fin 1)) = Cert.Nll.logdetK (arrO m c) := by
  have e : (at2 m c main_v6 : S1x1.Idx → EReal) = Pay.hostSum (at1 m c main_v0) := by
    show StableHlo.after hostOps1 (buf1 m c) (Proc.devRef .tc main_v6) = _
    after_results
    rfl
  refine (congrFun e _).trans ?_
  refine (host_sum _ _).trans ?_
  rw [at1_v0, sums_eq]
  show rowVal (arrO m c) 0 + rowVal (arrO m c) 8 = _
  rw [rowVal_lo _ (by omega), rowVal_hi _ (by omega)]
  rfl

/-! ## The elementwise call -/

theorem at2_arg0 : at2 m c main_arg0 = arrO m c :=
  (at2_of_not_mem m c main_arg0 (by decide)).trans ((at1_of_ne m c main_arg0 (by decide)).trans rfl)
theorem at2_arg1 : at2 m c main_arg1 = arrT m c :=
  (at2_of_not_mem m c main_arg1 (by decide)).trans ((at1_of_ne m c main_arg1 (by decide)).trans rfl)

/-- The array the elementwise call leaves is the specification's. -/
theorem loss_eq : loss m c = Cert.Nll.G (arrO m c) (arrT m c) := by
  unfold loss
  refine (lossDat (at2 m) c).arrAt_eq_of_cover 4 (Cert.Nll.G (arrO m c) (arrT m c)) (fun t _ => ?_) outBlk1_cover
  funext j
  obtain ⟨p, q, rfl⟩ : ∃ (p : Fin 512) (q : Fin 2048), j = ix2 p q := ⟨j 0, j 1, eq_ix2 (n0 := 512) (n1 := 2048) j⟩
  refine Eq.trans ?_ (outBlk1_read (F := Ideal) c (Cert.Nll.G (arrO m c) (arrT m c)) t p q).symm
  rw [Cert.Nll.G_apply]
  show (lossDat (at2 m) c).after 4 t (ix2 p q) = _
  rw [lossAfter4, lossOut_apply, lossBlk0_row, lossBlk1_row, lossBlk2_row, lossBlk3_apply, logdet_entry, at2_arg0, at2_arg1]

/-- The result array at the end of the run is the specification's array of the two arguments as launched. -/
theorem result_is_G : (at3 m c main_v7 : S4096x2048.Idx → EReal) = Cert.Nll.G (arrO m c) (arrT m c) :=
  (at3_v7 m c).trans (loss_eq m c)

end Cert.KernelIdeal.KValue

end
-- ==== Proof.RefValue.lean ====
/- The reference's result, read index by index off its operations. -/
import proofs.«152096_j45028437131761_2_alg».proof.Proof.Gen.ReferenceIdeal.Read
import proofs.«152096_j45028437131761_2_alg».proof.Proof.Spec

noncomputable section

open scoped BigOperators

namespace Cert.ReferenceIdeal.RefValue

open Cert.ReferenceIdeal Cert.ReferenceIdeal.Gen Idealize.ShloMosaic Idealize.ShloMosaic.ValueIdx

/-- The mean half's slice reads row `r` of the packed array. -/
theorem idx_mean (r : Fin 4096) (c : Fin 2048) : Read.idx_main_v0 (ix2 r c) = ix2 (Cert.Nll.meanRow r) c :=
  funext fun a => Fin.ext (by match a with | ⟨0, _⟩ => rfl | ⟨1, _⟩ => rfl)

/-- The diagonal-covariance half's slice reads row `4096 + r` of the packed array. -/
theorem idx_diag (r : Fin 4096) (c : Fin 2048) : Read.idx_main_v1 (ix2 r c) = ix2 (Cert.Nll.diagRow r) c :=
  funext fun a => Fin.ext (by match a with | ⟨0, _⟩ => rfl | ⟨1, _⟩ => rfl)

/-- The reference's log-determinant is the single sum over the diagonal-covariance half, started at zero. -/
theorem ref_logdet (o : FVec Ideal S8192x2048 .f32) (i : S_.Idx) :
    Read.val_main_v4 (F := Ideal) o i = Cert.Nll.logdetR o := by
  rw [Read.val_main_v4_apply, Read.val_main_cst_apply, sum_idx2]
  unfold Cert.Nll.logdetR
  rw [Ideal.ofBits_def, Ideal.ofBits_zero_f32]
  refine congrArg (0 + ·) (Finset.sum_congr rfl fun r _ => Finset.sum_congr rfl fun q _ => ?_)
  rw [Read.val_main_v3_apply, Read.val_main_v1_apply, idx_diag, Ideal.hostUnary_log_def]

/-- The reference's result is the specification's array. -/
theorem ref_is_G (o : FVec Ideal S8192x2048 .f32) (t : FVec Ideal S4096x2048 .f32) :
    Read.val_main_v9 (F := Ideal) o t = Cert.Nll.G o t := by
  funext j
  obtain ⟨r, c, rfl⟩ : ∃ (r : Fin 4096) (c : Fin 2048), j = ix2 r c := ⟨j 0, j 1, eq_ix2 j⟩
  rw [Read.val_main_v9_apply, Read.val_main_v8_apply, Read.val_main_v7_apply, ref_logdet, Read.val_main_v6_apply,
    Read.val_main_v5_apply, Read.val_main_v2_apply, Read.val_main_v0_apply, Read.val_main_v1_apply, idx_mean, idx_diag,
    Cert.Nll.G_apply, ← Cert.Nll.logdetK_eq_logdetR]
  simp only [Ideal.hostNegf_def, Ideal.negf_def, Ideal.addf_def, Ideal.hostDivf_def, Ideal.mulf_def, Ideal.subf_def]
  exact (zero_sub _).symm

end Cert.ReferenceIdeal.RefValue

end
-- ==== Proof.lean ====
/- The kernel computes, for mean and variance halves `mean`, `var` of `output` and for `target`,
   `-((mean - target)² / var + Σ log var)` in two kernel calls: the first sums `log var` over the variance half in four
   1024-row tiles, two per half of the rows, each pair accumulated in a 1×1 scratch and written to one row block of a
   16×128 array; the host adds the two partial sums; the second call is elementwise over eight 512-row blocks. The
   reference computes the same expression with one sum over all of `var`. At the ideal instance both results are the
   one function `Cert.Nll.G` of the argument arrays: the elementwise parts agree operation by operation (the kernel's
   `0 - x` is the reference's `-x`), and the two groupings of the sum of logarithms agree because addition of extended
   reals is commutative and associative — no finiteness of the inputs is used.
   The three frames: each program's run with the result dropped. The idealization rewrote nothing, so there is nothing to
   preserve. -/
import proofs.«152096_j45028437131761_2_alg».proof.Defs
import proofs.«152096_j45028437131761_2_alg».proof.Proof.Kernel.Run
import proofs.«152096_j45028437131761_2_alg».proof.Proof.KernelIdeal.Run
import proofs.«152096_j45028437131761_2_alg».proof.Proof.KernelValue
import proofs.«152096_j45028437131761_2_alg».proof.Proof.RefValue
import proofs.«152096_j45028437131761_2_alg».proof.Proof.Gen.Kernel
import proofs.«152096_j45028437131761_2_alg».proof.Proof.Gen.KernelIdeal
import proofs.«152096_j45028437131761_2_alg».proof.Proof.Gen.ReferenceIdeal
import proofs.«152096_j45028437131761_2_alg».proof.Proof.Gen.ReferenceIdeal.Run
import proofs.«152096_j45028437131761_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Frame.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Frame.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at `Cert.Nll.G` of the argument arrays: the kernel's by reading the last buffer
    state of its run, the reference's by reading its operations index by index; the arguments agree by hypothesis. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Nll.G (m ((c : Thread Cert.KernelIdeal.nD Cert.KernelIdeal.τ).loc Cert.KernelIdeal.main_arg0))
      (m ((c : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Frame.run_all (F := Ideal) m ρ)
    · exact (h c _ (Cert.KernelIdeal.Frame.mem_uc Cert.KernelIdeal.main_v7 (by decide))).trans (Cert.KernelIdeal.KValue.result_is_G m c)
    · exact (h c _ (Cert.KernelIdeal.Frame.mem_uc Cert.KernelIdeal.main_arg0 (by decide))).trans (Cert.KernelIdeal.Frame.at3_arg0 m c)
    · exact (h c _ (Cert.KernelIdeal.Frame.mem_uc Cert.KernelIdeal.main_arg1 (by decide))).trans (Cert.KernelIdeal.Frame.at3_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v9_eq, Cert.ReferenceIdeal.RefValue.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
